-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S64x4096 : Shape := ⟨2, ![64, 4096]⟩
abbrev S4096x64 : Shape := ⟨2, ![4096, 64]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S4096x1 .f32) (main_arg3 : FVec F S64x4096 .f32) (main_arg4 : FVec F S4096x64 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S64x4096 .f32 := Host.absf main_arg3
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x64 .f32 := Host.absf main_arg4
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S64x4096 : Shape := ⟨2, ![64, 4096]⟩
abbrev S4096x64 : Shape := ⟨2, ![4096, 64]⟩
abbrev S8192x4096 : Shape := ⟨2, ![8192, 4096]⟩
abbrev S8192x64 : Shape := ⟨2, ![8192, 64]⟩
abbrev S1024x1024 : Shape := ⟨2, ![1024, 1024]⟩
abbrev S64x1024 : Shape := ⟨2, ![64, 1024]⟩
abbrev S1024x64 : Shape := ⟨2, ![1024, 64]⟩
abbrev S1024x512 : Shape := ⟨2, ![1024, 512]⟩
abbrev S1024x1 : Shape := ⟨2, ![1024, 1]⟩

abbrev nBuf : Space → Nat
  | .hbm => 9
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S64x4096, .f32⟩
  | .hbm, ⟨4, _⟩ => ⟨S4096x64, .f32⟩
  | .hbm, ⟨5, _⟩ => ⟨S8192x4096, .f32⟩
  | .hbm, ⟨6, _⟩ => ⟨S8192x64, .f32⟩
  | .hbm, ⟨7, _⟩ => ⟨S8192x4096, .f32⟩
  | .hbm, ⟨8, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S64x1024, .f32⟩
  | .local _ .vmem, ⟨3, _⟩ => ⟨S64x1024, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x512, .f32⟩
  | .local _ .vmem, ⟨8, _⟩ => ⟨S1024x512, .f32⟩
  | .local _ .vmem, ⟨9, _⟩ => ⟨S1024x512, .i32⟩
  | .local _ .vmem, ⟨10, _⟩ => ⟨S1024x512, .i32⟩
  | .local _ .vmem, ⟨11, _⟩ => ⟨S1024x1, .f32⟩
  | .local _ .vmem, ⟨12, _⟩ => ⟨S1024x1, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨3, ![8, 4, 8], ![false, false, false]⟩

def k1_cond2 (i : grid1.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_10 : BitVec 32 := 0#32
  let v20 : BitVec 1 := Scalar.cmpi .ne v19 c0_i32_10
  v20

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x2048x4096_S8192x4096 : S4x2048x4096.ShapeCasts S8192x4096
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  broadcasts_S1024x1_S1024x512 : S1024x1.Broadcasts S1024x512
  shapeCasts_S8192x4096_S4x2048x4096 : S8192x4096.ShapeCasts S4x2048x4096
  dot_S1024x1024_S64x1024_S1024x64_1_1_0_0_n_n_wf : DotDims.WF S1024x1024 S64x1024 S1024x64 [1] [1] [0] [0] [] []
  dot_S1024x512_S1024x512_S1024x1024_1_1_0_0_n_n_wf : DotDims.WF S1024x512 S1024x512 S1024x1024 [1] [1] [0] [0] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x4096.size a
  hwx0_1 : ∀ i : grid0.Coords, EltTy.bits .f32 = 32 ∨ (Rect.block (s := S64x4096) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .i32 = 32 ∨ (Rect.block (s := S4096x4096) S1024x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S4096x64.size a
  hwx1_3 : ∀ i : grid1.Coords, EltTy.bits .f32 = 32 ∨ (Rect.block (s := S4096x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S8192x64.size a
  hwx1_4 : ∀ i : grid1.Coords, EltTy.bits .f32 = 32 ∨ (Rect.block (s := S8192x64) S1024x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x4096.size a
  hwx1_5 : ∀ i : grid1.Coords, EltTy.bits .f32 = 32 ∨ (Rect.block (s := S8192x4096) S1024x1024.size (cc1_transform_5 i) (hinb1_5 i)).WholeWords (EltTy.packing .f32)

variable [Facts₀]

def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S64x4096 : Shape := ⟨2, ![64, 4096]⟩
abbrev S4096x64 : Shape := ⟨2, ![4096, 64]⟩
abbrev S4x2048x64 : Shape := ⟨3, ![4, 2048, 64]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S64x4096, .f32⟩
  | .hbm, ⟨4, _⟩ => ⟨S4096x64, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S4x2048x64, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf

class Facts : Prop extends Facts₀ where

variable [Facts]
-- ==== Proof.K.Cases0.lean ====
/-
  Region 0 (the down projection x·aᵀ, accumulated over four column blocks of 1024): what its three kinds of grid
  point share. The grid is 8 × 4, the second coordinate the column block k. At k = 0 the accumulator is reset to
  zero before the block's product is added; at k = 3 the accumulator is copied to the output block after the
  addition; at the other points the output's buffer is left alone. Here: the two conditions in closed form over the
  linear point number t (k = t mod 4), where the output window is idle, the memrefs the body is called with, and the
  region invariant's scoped part spelt with the accumulator as an owned memref.
-/
import proofs.«131997_j22600117911582_1_alg».proof.Proof.Gen.Kernel.Launch
import proofs.«131997_j22600117911582_1_alg».proof.Proof.Gen.Kernel.Skeleton
import proofs.«131997_j22600117911582_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- "The column block is the first": the reset's condition, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "The column block is the last": the copy-out's condition. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The two input windows are never idle; the output window is idle, and not written back, except at the last column block. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- Each window's current staging memref at point t, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x64 .f32 := Memref.whole cc0_scratch0
/-- Views through which the output's and the accumulator's contents are stated. -/
abbrev VO0 : View sig .tc .vmem S1024x64 .f32 := (Memref.whole cc0_stg2_0 : Memref sig .tc .vmem S1024x64 .f32).view
abbrev VS0 : View sig .tc .vmem S1024x64 .f32 := scM0.view

/-- The region's scoped rest with the accumulator as a memref owned at some contents, the other thirteen scoped
    buffers (the second region's) each at some contents, and the generator register at some state. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

end Cert.Kernel.Fr

end
-- ==== Proof.K.Run0A.lean ====
/-
  Region 0's body at a point of the FIRST column block (reset taken, copy-out not taken): from the two input
  blocks at their contents, the output's buffer at contents it hands back untouched and the accumulator at anything,
  the body runs to the end leaving the inputs as they were and the accumulator with two stores written (the zero
  splat, then zero plus the block's product). The stores are listed as pieces, the last first.
-/
import proofs.«131997_j22600117911582_1_alg».proof.Proof.K.Cases0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i)
    (x0 : Vec F S1024x1024 .f32) (x1 : Vec F S64x1024 .f32) :
    { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__xa_kernel i arg2 harg2 arg3 harg3 arg4 harg4 arg5 harg5) K } := by
  refine ⟨?_, fun xi2 E K => ?run⟩
  case run =>
    simp only [cc0__xa_kernel_eq_skeleton]; unfold cc0__xa_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.Run0B.lean ====
/-
  Region 0's body at a point of a MIDDLE column block (neither reset nor copy-out): the accumulator comes in at
  what the point before left and goes out with one store written (itself plus the block's product); the output's
  buffer is handed back untouched.
-/
import proofs.«131997_j22600117911582_1_alg».proof.Proof.K.Run0A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i)
    (x0 : Vec F S1024x1024 .f32) (x1 : Vec F S64x1024 .f32) (xs0 : Vec F S1024x64 .f32) :
    { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__xa_kernel i arg2 harg2 arg3 harg3 arg4 harg4 arg5 harg5) K } := by
  refine ⟨?_, fun xi2 E K => ?run⟩
  case run =>
    simp only [cc0__xa_kernel_eq_skeleton]; unfold cc0__xa_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.Run0C.lean ====
/-
  Region 0's body at a point of the LAST column block (copy-out taken, reset not): the accumulator comes in at
  what the point before left, one store adds the block's product, and the output's buffer, handed in at anything,
  goes out with one store written (the accumulator's new contents).
-/
import proofs.«131997_j22600117911582_1_alg».proof.Proof.K.Run0B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i)
    (x0 : Vec F S1024x1024 .f32) (x1 : Vec F S64x1024 .f32) (xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__xa_kernel i arg2 harg2 arg3 harg3 arg4 harg4 arg5 harg5) K } := by
  refine ⟨?_, ?_, fun E K => ?run⟩
  case run =>
    simp only [cc0__xa_kernel_eq_skeleton]; unfold cc0__xa_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Region0.lean ====
/-
  Region 0 as the pipeline's proof data. After the body at point t (column block k = t mod 4 of row block t / 4):
  the accumulator holds, at k = 0, zero plus the block's product, and at k > 0 what the point before left plus the
  block's product; the output's buffer holds the accumulator's contents at k = 3 and is left alone elsewhere. The
  region's invariant keeps the accumulator at exactly those contents between points. From these: the body
  obligation at every point, by the three runs.
-/
import proofs.«131997_j22600117911582_1_alg».proof.Proof.K.Run0C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## What each case leaves -/

theorem scover0_A (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i) (x0 : Vec F S1024x1024 .f32) (x1 : Vec F S64x1024 .f32) (y : S1024x64.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1024x64.size (by sl_kernel_rfl) y
/-- The accumulator after a first-block point. -/
def sout0_A (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i) (x0 : Vec F S1024x1024 .f32) (x1 : Vec F S64x1024 .f32) : Vec F S1024x64 .f32 :=
  VS0.read (Elt F) (VS0.writes (Elt F) VS0.junk (kernelRun0_A c i arg2 harg2 arg3 harg3 arg4 harg4 arg5 harg5 hc0 hc1 x0 x1).1)

theorem scover0_B (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i) (x0 : Vec F S1024x1024 .f32) (x1 : Vec F S64x1024 .f32) (xs0 : Vec F S1024x64 .f32) (y : S1024x64.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024x64.size (by sl_kernel_rfl) y
/-- The accumulator after a middle-block point. -/
def sout0_B (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i) (x0 : Vec F S1024x1024 .f32) (x1 : Vec F S64x1024 .f32) (xs0 : Vec F S1024x64 .f32) : Vec F S1024x64 .f32 :=
  VS0.read (Elt F) (VS0.writes (Elt F) VS0.junk (kernelRun0_B c i arg2 harg2 arg3 harg3 arg4 harg4 arg5 harg5 hc0 hc1 x0 x1 xs0).1)

theorem cover0_C (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x1024 .f32) (x1 : Vec F S64x1024 .f32) (xs0 : Vec F S1024x64 .f32) (y : S1024x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x64.size (by sl_kernel_rfl) y
/-- The output's buffer after a last-block point. -/
def out0_C (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x1024 .f32) (x1 : Vec F S64x1024 .f32) (xs0 : Vec F S1024x64 .f32) : Vec F S1024x64 .f32 :=
  VO0.read (Elt F) (VO0.writes (Elt F) VO0.junk (kernelRun0_C c i arg2 harg2 arg3 harg3 arg4 harg4 arg5 harg5 hc0 hc1 x0 x1 xs0).1)
theorem scover0_C (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x1024 .f32) (x1 : Vec F S64x1024 .f32) (xs0 : Vec F S1024x64 .f32) (y : S1024x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x64.size (by sl_kernel_rfl) y
/-- The accumulator after a last-block point. -/
def sout0_C (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x1024 .f32) (x1 : Vec F S64x1024 .f32) (xs0 : Vec F S1024x64 .f32) : Vec F S1024x64 .f32 :=
  VS0.read (Elt F) (VS0.writes (Elt F) VS0.junk (kernelRun0_C c i arg2 harg2 arg3 harg3 arg4 harg4 arg5 harg5 hc0 hc1 x0 x1 xs0).2.1)

/-! ## Point by point -/

/-- THE ACCUMULATION: after the body at position n, the pair (output's buffer, accumulator). Where the output window
    is idle its component is a placeholder nothing reads (the accumulator's contents again). -/
def outsAt0 (c : Dev nD) : (n : ℕ) → n < cfg0.N → Vec F S1024x64 .f32 × Vec F S1024x64 .f32
  | 0, hn => (sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t), sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the first point the scoped rest at anything; afterwards the accumulator at what the point
    before left, the second region's scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 4 = 3
  · have h0 : ¬ t.val % 4 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C sout0_C; (try dsimp only)
    rw [PhiS0_castSucc V c t, PhiS0_pos V c _ _ hz]
    iintro ⟨⟨⟨HS0, Hoth⟩, Hg⟩, Ho, ⟨%d0, H0⟩, ⟨%d1, H1⟩, ⟨%d2, H2⟩⟩
    iapply ((kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg Hoth]
    · isplitl [HS0 Hoth]
      · isplitl [HS0]
        · unfold owns; iexists _; isplitr
          swap; · iexact HS0
          ipureintro; exact View.read_writes_of_cover _ _ _ _ _ (scover0_C c _ _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 4 = 0
    · rw [outsAt0_A V c t h0 h1]
      unfold sout0_A; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_A c _ _ _ _ _ _ _ _ _ _ _ _ _)
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_A c _ _ _ _ _ _ _ _ _ _ _ _ _)
            iexact Hoth
          iexact Hg
        isplitl [Ho]; · iexact Ho
        isplitl [H0]; · iexact H0
        isplitl [H1]; · iexact H1
        iexists _; iexact H2
    · have hz : t.val ≠ 0 := by omega
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Region0

end Cert.Kernel.Fr

end
-- ==== Proof.K.Cases1.lean ====
/-
  Region 1 (the base product x·wᵀ accumulated over eight column blocks of 512, then the low-rank term added): what
  its three kinds of grid point share. The grid is 8 × 4 × 8, the third coordinate the column block k. At k = 0 the
  accumulator is reset to zero before the block's product is added; at k = 7, after the addition, the output block
  is written as the accumulator plus twice the product of the down projection's block with the second factor's
  block; at the other points the output's buffer is left alone. Here: the two conditions in closed form over the
  linear point number t (k = t mod 8), where the output window is idle, the memrefs the body is called with, and
  the region invariant's scoped part spelt with the accumulator as an owned memref.
-/
import proofs.«131997_j22600117911582_1_alg».proof.Proof.Gen.Kernel.Launch
import proofs.«131997_j22600117911582_1_alg».proof.Proof.Gen.Kernel.Skeleton
import proofs.«131997_j22600117911582_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window that
    is not fetched at a point has the block index of the point before, and the body leaves its block in place). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-- "The column block is the first": the reset's condition, from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "The column block is the last": the condition of the output's store. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The five input windows are never idle; the output window is idle, and not written back, except at the last column block. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- Each window's current staging memref at point t, as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1 : Memref sig .tc .vmem S1024x1024 .f32 := Memref.whole cc1_scratch0
/-- Views through which the output's and the accumulator's contents are stated. -/
abbrev VO1 : View sig .tc .vmem S1024x1024 .f32 := (Memref.whole cc1_stg5_0 : Memref sig .tc .vmem S1024x1024 .f32).view
abbrev VS1 : View sig .tc .vmem S1024x1024 .f32 := scM1.view

/-- The last of eight separate parts may be named first. -/
theorem sep_last_first {M : Type} [URA M] (A1 A2 A3 A4 A5 A6 A7 S : sProp M) :
    iprop(A1 ∗ A2 ∗ A3 ∗ A4 ∗ A5 ∗ A6 ∗ A7 ∗ S) = iprop(S ∗ A1 ∗ A2 ∗ A3 ∗ A4 ∗ A5 ∗ A6 ∗ A7) := by
  have h1 : iprop(A1 ∗ A2 ∗ A3 ∗ A4 ∗ A5 ∗ A6 ∗ A7 ∗ S) ⊢ iprop(S ∗ A1 ∗ A2 ∗ A3 ∗ A4 ∗ A5 ∗ A6 ∗ A7) := by
    iintro ⟨H1, H2, H3, H4, H5, H6, H7, HS⟩
    isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  have h2 : iprop(S ∗ A1 ∗ A2 ∗ A3 ∗ A4 ∗ A5 ∗ A6 ∗ A7) ⊢ iprop(A1 ∗ A2 ∗ A3 ∗ A4 ∗ A5 ∗ A6 ∗ A7 ∗ S) := by
    iintro ⟨HS, H1, H2, H3, H4, H5, H6, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  exact Idealize.SL.BI.Entails.antisymm h1 h2

/-- The region's scoped rest without the accumulator: the other seven scoped buffers (the first region's) each at
    some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region's invariant at entry: the accumulator as a memref owned at some contents, the first region's scoped
    buffers each at some contents, and the generator register at some state. -/
theorem PhiA1_eq (c : Dev nD) :
    (Pipeline.ΦA spec1 c : sProp 𝕄)
      = iprop(iprop((∃ d, owns (c : Thread nD τ) scM1 fullShare d) ∗ others1 (F := F) c) ∗ (∃ r, prngReg c r)) := by
  unfold Pipeline.ΦA others1; rw [scopedRest1_eq]; simp only [scM1, owns_whole]
  congr 1
  exact sep_last_first _ _ _ _ _ _ _ _

end Cert.Kernel.Fr

end
-- ==== Proof.K.Run1A.lean ====
/-
  Region 1's body at a point of the FIRST column block (reset taken, output's store not): from the five input
  blocks at their contents, the output's buffer at contents it hands back untouched and the accumulator at anything,
  the body runs to the end leaving the inputs as they were and the accumulator with two stores written (the zero
  splat, then zero plus the block's product). The stores are listed as pieces, the last first.
-/
import proofs.«131997_j22600117911582_1_alg».proof.Proof.K.Cases1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x512 .f32) (x1 : Vec F S1024x512 .i32) (x2 : Vec F S1024x1 .f32) (x3 : Vec F S1024x64 .f32) (x4 : Vec F S1024x64 .f32) :
    { LS0 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.K.Run1B.lean ====
/-
  Region 1's body at a point of a MIDDLE column block (neither reset nor output's store): the accumulator comes in
  at what the point before left and goes out with one store written (itself plus the block's product); the output's
  buffer is handed back untouched.
-/
import proofs.«131997_j22600117911582_1_alg».proof.Proof.K.Run1A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x512 .f32) (x1 : Vec F S1024x512 .i32) (x2 : Vec F S1024x1 .f32) (x3 : Vec F S1024x64 .f32) (x4 : Vec F S1024x64 .f32) (xs0 : Vec F S1024x1024 .f32) :
    { LS0 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.K.Run1C.lean ====
/-
  Region 1's body at a point of the LAST column block (output's store taken, reset not): the accumulator comes in
  at what the point before left, one store adds the block's product, and the output's buffer, handed in at anything,
  goes out with one store written (the accumulator's new contents plus twice the product of the down projection's
  block with the second factor's block).
-/
import proofs.«131997_j22600117911582_1_alg».proof.Proof.K.Run1B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x512 .f32) (x1 : Vec F S1024x512 .i32) (x2 : Vec F S1024x1 .f32) (x3 : Vec F S1024x64 .f32) (x4 : Vec F S1024x64 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Fr

end
-- ==== Proof.K.Region1.lean ====
/-
  Region 1 as the pipeline's proof data. After the body at point t (column block k = t mod 8): the accumulator
  holds, at k = 0, zero plus the block's product, and at k > 0 what the point before left plus the block's product;
  the output's buffer holds, at k = 7, the accumulator plus twice the low-rank block's product, and is left alone
  elsewhere. The region's invariant keeps the accumulator at exactly those contents between points. From these: the
  body obligation at every point, by the three runs.
-/
import proofs.«131997_j22600117911582_1_alg».proof.Proof.K.Run1C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What each case leaves -/

theorem scover1_A (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 : Vec F S1024x512 .f32) (x1 : Vec F S1024x512 .i32) (x2 : Vec F S1024x1 .f32) (x3 : Vec F S1024x64 .f32) (x4 : Vec F S1024x64 .f32) (y : S1024x1024.Idx) :
    ∃ pc ∈ (kernelRun1_A c i arg3 harg3 arg4 harg4 arg5 harg5 arg6 harg6 arg7 harg7 arg8 harg8 arg9 harg9 hc0 hc1 x0 x1 x2 x3 x4).1, y ∈ pc.1.set :=
  View.cover_of_tiledL (kernelRun1_A c i arg3 harg3 arg4 harg4 arg5 harg5 arg6 harg6 arg7 harg7 arg8 harg8 arg9 harg9 hc0 hc1 x0 x1 x2 x3 x4).1 S1024x1024.size (by sl_kernel_rfl) y
/-- The accumulator after a first-block point. -/
def sout1_A (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 : Vec F S1024x512 .f32) (x1 : Vec F S1024x512 .i32) (x2 : Vec F S1024x1 .f32) (x3 : Vec F S1024x64 .f32) (x4 : Vec F S1024x64 .f32) : Vec F S1024x1024 .f32 :=
  VS1.read (Elt F) (VS1.writes (Elt F) VS1.junk (kernelRun1_A c i arg3 harg3 arg4 harg4 arg5 harg5 arg6 harg6 arg7 harg7 arg8 harg8 arg9 harg9 hc0 hc1 x0 x1 x2 x3 x4).1)

theorem scover1_B (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 : Vec F S1024x512 .f32) (x1 : Vec F S1024x512 .i32) (x2 : Vec F S1024x1 .f32) (x3 : Vec F S1024x64 .f32) (x4 : Vec F S1024x64 .f32) (xs0 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 x3 x4 xs0).1, y ∈ pc.1.set :=
  View.cover_of_tiledL (kernelRun1_B c i arg3 harg3 arg4 harg4 arg5 harg5 arg6 harg6 arg7 harg7 arg8 harg8 arg9 harg9 hc0 hc1 x0 x1 x2 x3 x4 xs0).1 S1024x1024.size (by sl_kernel_rfl) y
/-- The accumulator after a middle-block point. -/
def sout1_B (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 : Vec F S1024x512 .f32) (x1 : Vec F S1024x512 .i32) (x2 : Vec F S1024x1 .f32) (x3 : Vec F S1024x64 .f32) (x4 : Vec F S1024x64 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 arg9 harg9 hc0 hc1 x0 x1 x2 x3 x4 xs0).1)

theorem cover1_C (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x512 .f32) (x1 : Vec F S1024x512 .i32) (x2 : Vec F S1024x1 .f32) (x3 : Vec F S1024x64 .f32) (x4 : Vec F S1024x64 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x1024.size (by sl_kernel_rfl) y
/-- The output's buffer after a last-block point. -/
def out1_C (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x512 .f32) (x1 : Vec F S1024x512 .i32) (x2 : Vec F S1024x1 .f32) (x3 : Vec F S1024x64 .f32) (x4 : Vec F S1024x64 .f32) (xs0 : Vec F S1024x1024 .f32) : Vec F S1024x1024 .f32 :=
  VO1.read (Elt F) (VO1.writes (Elt F) VO1.junk (kernelRun1_C c i arg3 harg3 arg4 harg4 arg5 harg5 arg6 harg6 arg7 harg7 arg8 harg8 arg9 harg9 hc0 hc1 x0 x1 x2 x3 x4 xs0).1)
theorem scover1_C (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x512 .f32) (x1 : Vec F S1024x512 .i32) (x2 : Vec F S1024x1 .f32) (x3 : Vec F S1024x64 .f32) (x4 : Vec F S1024x64 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x1024.size (by sl_kernel_rfl) y
/-- The accumulator after a last-block point. -/
def sout1_C (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x512 .f32) (x1 : Vec F S1024x512 .i32) (x2 : Vec F S1024x1 .f32) (x3 : Vec F S1024x64 .f32) (x4 : Vec F S1024x64 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 x4 xs0).2.1)

/-! ## Point by point -/

/-- THE ACCUMULATION: after the body at position n, the pair (output's buffer, accumulator). Where the output window
    is idle its component is a placeholder nothing reads (the accumulator's contents again). -/
def outsAt1 (c : Dev nD) : (n : ℕ) → n < cfg1.N → Vec F S1024x1024 .f32 × Vec F S1024x1024 .f32
  | 0, hn => (sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the first point the scoped rest at anything; afterwards the accumulator at what the point
    before left, the first region's scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h1 : t.val % 8 = 7
  · have h0 : ¬ t.val % 8 = 0 := by omega
    have hz : t.val ≠ 0 := by omega
    rw [show (dat1 V c).leavesExact 5 t = owns (c : Thread nD τ) (ms1_5 t) fullShare ((dat1 V c).after 5 t) from by
      unfold Dat.leavesExact; rw [liveAt1_5 t ((hcond1_1 t).mpr h1)], after1_5]
    rw [outsAt1_C V c t h0 h1]
    unfold out1_C sout1_C; (try dsimp only)
    rw [PhiS1_castSucc V c t, PhiS1_pos V c _ _ hz]
    iintro ⟨⟨⟨HS0, Hoth⟩, Hg⟩, Ho, ⟨%d0, H0⟩, ⟨%d1, H1⟩, ⟨%d2, H2⟩, ⟨%d3, H3⟩, ⟨%d4, H4⟩, ⟨%d5, H5⟩⟩
    iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hg Hoth]
    · isplitl [HS0 Hoth]
      · isplitl [HS0]
        · unfold owns; iexists _; isplitr
          swap; · iexact HS0
          ipureintro; exact View.read_writes_of_cover _ _ _ _ _ (scover1_C c _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_C c _ _ _ _ _ _ _ _ _ _ _ _ _ _ _ _ _ _ _ _ _ _ _)
  · rw [Dat.leavesExact_idle (dat1 V c) 5 t (idleAt1_5 t (fun h => h1 ((hcond1_1 t).mp h))) (noFlush1_5 t (fun h => h1 ((hcond1_1 t).mp h)))]
    by_cases h0 : t.val % 8 = 0
    · rw [outsAt1_A V c t h0 h1]
      unfold sout1_A; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover1_A c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover1_A c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · have hz : t.val ≠ 0 := by omega
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

end Region1

end Cert.Kernel.Fr

end
-- ==== Proof.K.Assemble.lean ====
/-
  The whole program as four segments: the reshape of the activations to [8192, 4096]; region 0 (the down
  projection); region 1 (the base product plus twice the low-rank term); the reshape of the result back to
  [4, 2048, 4096]. Between segments every unscoped buffer is held at named contents W0 … W4: the launch memory, then
  each host operation applied, then each region's arrays at what its write-backs leave. The run ends with the
  result buffer at W4's contents and every argument as launched.
-/
import proofs.«131997_j22600117911582_1_alg».proof.Proof.K.Region0
import proofs.«131997_j22600117911582_1_alg».proof.Proof.K.Region1
import proofs.«131997_j22600117911582_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After region 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last reshape. -/
abbrev W4 : Dev nD → Valuation τ sig (Elt F) := fun c => StableHlo.after hostOps2 (W3 m c)

/-! ## The arguments end as launched -/

/-- main_arg0 reaches the end as launched: no host operation writes it and a region at most reads it through an input window. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- main_arg1 reaches the end as launched: no host operation writes it and a region at most reads it through an input window. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := (W3_arr m c 1).trans (((dat1 (V2 m) c).arrAt_in 1 rfl _).trans (A_eq1 (V2 m) c 1))
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- main_arg2 reaches the end as launched: no host operation writes it and a region at most reads it through an input window. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := (W3_arr m c 2).trans (((dat1 (V2 m) c).arrAt_in 2 rfl _).trans (A_eq1 (V2 m) c 2))
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- main_arg3 reaches the end as launched: no host operation writes it and a region at most reads it through an input window. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := (W2_arr m c 1).trans (((dat0 (V1 m) c).arrAt_in 1 rfl _).trans (A_eq0 (V1 m) c 1))
    _ = W0 m c (Proc.devRef .tc main_arg3) := StableHlo.after_of_writes_sub hostOps0 _ hostOps0_writes (by decide)
    _ = m ((c : Thread nD τ).loc main_arg3) := rfl

/-- main_arg4 reaches the end as launched: no host operation writes it and a region at most reads it through an input window. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := (W3_arr m c 3).trans (((dat1 (V2 m) c).arrAt_in 3 rfl _).trans (A_eq1 (V2 m) c 3))
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

abbrev adm : (p : Fin 2) → (pcfgs (F := F) p).Adm := fun p => (cfgs p).toPCfg_adm
/-- Each region's proof data at its entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec0 c ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine Idealize.SL.BI.BIBase.Entails.trans (show (pdats m 0 c).Φ (Fin.last _) ⊢ Pipeline.ΦA spec0 c from hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec1 c ⊢ (pdats m 1 c).Φ 0 from hin1 (V2 m) c)
    unfold Pipeline.ΦA
    iintro ⟨Hp, -, Hr⟩
    isplitl [Hr]; · iexact Hr
    iexact Hp
  hout c := by
    rw [Pipeline.ownSems0_none]
    refine Idealize.SL.BI.BIBase.Entails.trans (show (pdats m 1 c).Φ (Fin.last _) ⊢ Pipeline.ΦA spec1 c from hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution of the program from memory m with zero counters terminates, nothing faulting, and
    ends with the result buffer at W4's contents and every argument array as launched. -/
theorem run_main : θ_run defs (onTc (τ := τ) (main (F := F))) ⟨m, fun _ => 0, ρ⟩ (fun r => ∀ c : Dev nD,
      r.2.mem ((c.tc : Thread nD τ).loc main_v3) = W4 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v3 (by decide)),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.Kernel.Fr

end
-- ==== Proof.KI.Cases0.lean ====
/-
  Region 0 (the down projection x·aᵀ, accumulated over four column blocks of 1024): what its three kinds of grid
  point share. The grid is 8 × 4, the second coordinate the column block k. At k = 0 the accumulator is reset to
  zero before the block's product is added; at k = 3 the accumulator is copied to the output block after the
  addition; at the other points the output's buffer is left alone. Here: the two conditions in closed form over the
  linear point number t (k = t mod 4), where the output window is idle, the memrefs the body is called with, and the
  region invariant's scoped part spelt with the accumulator as an owned memref.
-/
import proofs.«131997_j22600117911582_1_alg».proof.Proof.Gen.KernelIdeal.Launch
import proofs.«131997_j22600117911582_1_alg».proof.Proof.Gen.KernelIdeal.Skeleton
import proofs.«131997_j22600117911582_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- "The column block is the first": the reset's condition, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "The column block is the last": the copy-out's condition. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The two input windows are never idle; the output window is idle, and not written back, except at the last column block. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- Each window's current staging memref at point t, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x64 .f32 := Memref.whole cc0_scratch0
/-- Views through which the output's and the accumulator's contents are stated. -/
abbrev VO0 : View sig .tc .vmem S1024x64 .f32 := (Memref.whole cc0_stg2_0 : Memref sig .tc .vmem S1024x64 .f32).view
abbrev VS0 : View sig .tc .vmem S1024x64 .f32 := scM0.view

/-- The region's scoped rest with the accumulator as a memref owned at some contents, the other thirteen scoped
    buffers (the second region's) each at some contents, and the generator register at some state. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

end Cert.KernelIdeal.Fr

end
-- ==== Proof.KI.Run0A.lean ====
/-
  Region 0's body at a point of the FIRST column block (reset taken, copy-out not taken): from the two input
  blocks at their contents, the output's buffer at contents it hands back untouched and the accumulator at anything,
  the body runs to the end leaving the inputs as they were and the accumulator with two stores written (the zero
  splat, then zero plus the block's product). The stores are listed as pieces, the last first.
-/
import proofs.«131997_j22600117911582_1_alg».proof.Proof.KI.Cases0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i)
    (x0 : Vec F S1024x1024 .f32) (x1 : Vec F S64x1024 .f32) :
    { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__xa_kernel i arg2 harg2 arg3 harg3 arg4 harg4 arg5 harg5) K } := by
  refine ⟨?_, fun xi2 E K => ?run⟩
  case run =>
    simp only [cc0__xa_kernel_eq_skeleton]; unfold cc0__xa_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.Run0B.lean ====
/-
  Region 0's body at a point of a MIDDLE column block (neither reset nor copy-out): the accumulator comes in at
  what the point before left and goes out with one store written (itself plus the block's product); the output's
  buffer is handed back untouched.
-/
import proofs.«131997_j22600117911582_1_alg».proof.Proof.KI.Run0A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i)
    (x0 : Vec F S1024x1024 .f32) (x1 : Vec F S64x1024 .f32) (xs0 : Vec F S1024x64 .f32) :
    { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__xa_kernel i arg2 harg2 arg3 harg3 arg4 harg4 arg5 harg5) K } := by
  refine ⟨?_, fun xi2 E K => ?run⟩
  case run =>
    simp only [cc0__xa_kernel_eq_skeleton]; unfold cc0__xa_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.Run0C.lean ====
/-
  Region 0's body at a point of the LAST column block (copy-out taken, reset not): the accumulator comes in at
  what the point before left, one store adds the block's product, and the output's buffer, handed in at anything,
  goes out with one store written (the accumulator's new contents).
-/
import proofs.«131997_j22600117911582_1_alg».proof.Proof.KI.Run0B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i)
    (x0 : Vec F S1024x1024 .f32) (x1 : Vec F S64x1024 .f32) (xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__xa_kernel i arg2 harg2 arg3 harg3 arg4 harg4 arg5 harg5) K } := by
  refine ⟨?_, ?_, fun E K => ?run⟩
  case run =>
    simp only [cc0__xa_kernel_eq_skeleton]; unfold cc0__xa_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Region0.lean ====
/-
  Region 0 as the pipeline's proof data. After the body at point t (column block k = t mod 4 of row block t / 4):
  the accumulator holds, at k = 0, zero plus the block's product, and at k > 0 what the point before left plus the
  block's product; the output's buffer holds the accumulator's contents at k = 3 and is left alone elsewhere. The
  region's invariant keeps the accumulator at exactly those contents between points. From these: the body
  obligation at every point, by the three runs.
-/
import proofs.«131997_j22600117911582_1_alg».proof.Proof.KI.Run0C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## What each case leaves -/

theorem scover0_A (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i) (x0 : Vec F S1024x1024 .f32) (x1 : Vec F S64x1024 .f32) (y : S1024x64.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1024x64.size (by sl_kernel_rfl) y
/-- The accumulator after a first-block point. -/
def sout0_A (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i) (x0 : Vec F S1024x1024 .f32) (x1 : Vec F S64x1024 .f32) : Vec F S1024x64 .f32 :=
  VS0.read (Elt F) (VS0.writes (Elt F) VS0.junk (kernelRun0_A c i arg2 harg2 arg3 harg3 arg4 harg4 arg5 harg5 hc0 hc1 x0 x1).1)

theorem scover0_B (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i) (x0 : Vec F S1024x1024 .f32) (x1 : Vec F S64x1024 .f32) (xs0 : Vec F S1024x64 .f32) (y : S1024x64.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024x64.size (by sl_kernel_rfl) y
/-- The accumulator after a middle-block point. -/
def sout0_B (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i) (x0 : Vec F S1024x1024 .f32) (x1 : Vec F S64x1024 .f32) (xs0 : Vec F S1024x64 .f32) : Vec F S1024x64 .f32 :=
  VS0.read (Elt F) (VS0.writes (Elt F) VS0.junk (kernelRun0_B c i arg2 harg2 arg3 harg3 arg4 harg4 arg5 harg5 hc0 hc1 x0 x1 xs0).1)

theorem cover0_C (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x1024 .f32) (x1 : Vec F S64x1024 .f32) (xs0 : Vec F S1024x64 .f32) (y : S1024x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x64.size (by sl_kernel_rfl) y
/-- The output's buffer after a last-block point. -/
def out0_C (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x1024 .f32) (x1 : Vec F S64x1024 .f32) (xs0 : Vec F S1024x64 .f32) : Vec F S1024x64 .f32 :=
  VO0.read (Elt F) (VO0.writes (Elt F) VO0.junk (kernelRun0_C c i arg2 harg2 arg3 harg3 arg4 harg4 arg5 harg5 hc0 hc1 x0 x1 xs0).1)
theorem scover0_C (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x1024 .f32) (x1 : Vec F S64x1024 .f32) (xs0 : Vec F S1024x64 .f32) (y : S1024x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x64.size (by sl_kernel_rfl) y
/-- The accumulator after a last-block point. -/
def sout0_C (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x1024 .f32) (x1 : Vec F S64x1024 .f32) (xs0 : Vec F S1024x64 .f32) : Vec F S1024x64 .f32 :=
  VS0.read (Elt F) (VS0.writes (Elt F) VS0.junk (kernelRun0_C c i arg2 harg2 arg3 harg3 arg4 harg4 arg5 harg5 hc0 hc1 x0 x1 xs0).2.1)

/-! ## Point by point -/

/-- THE ACCUMULATION: after the body at position n, the pair (output's buffer, accumulator). Where the output window
    is idle its component is a placeholder nothing reads (the accumulator's contents again). -/
def outsAt0 (c : Dev nD) : (n : ℕ) → n < cfg0.N → Vec F S1024x64 .f32 × Vec F S1024x64 .f32
  | 0, hn => (sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t), sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the first point the scoped rest at anything; afterwards the accumulator at what the point
    before left, the second region's scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 4 = 3
  · have h0 : ¬ t.val % 4 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C sout0_C; (try dsimp only)
    rw [PhiS0_castSucc V c t, PhiS0_pos V c _ _ hz]
    iintro ⟨⟨⟨HS0, Hoth⟩, Hg⟩, Ho, ⟨%d0, H0⟩, ⟨%d1, H1⟩, ⟨%d2, H2⟩⟩
    iapply ((kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg Hoth]
    · isplitl [HS0 Hoth]
      · isplitl [HS0]
        · unfold owns; iexists _; isplitr
          swap; · iexact HS0
          ipureintro; exact View.read_writes_of_cover _ _ _ _ _ (scover0_C c _ _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 4 = 0
    · rw [outsAt0_A V c t h0 h1]
      unfold sout0_A; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_A c _ _ _ _ _ _ _ _ _ _ _ _ _)
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover0_A c _ _ _ _ _ _ _ _ _ _ _ _ _)
            iexact Hoth
          iexact Hg
        isplitl [Ho]; · iexact Ho
        isplitl [H0]; · iexact H0
        isplitl [H1]; · iexact H1
        iexists _; iexact H2
    · have hz : t.val ≠ 0 := by omega
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Region0

end Cert.KernelIdeal.Fr

end
-- ==== Proof.KI.Cases1.lean ====
/-
  Region 1 (the base product x·wᵀ accumulated over eight column blocks of 512, then the low-rank term added): what
  its three kinds of grid point share. The grid is 8 × 4 × 8, the third coordinate the column block k. At k = 0 the
  accumulator is reset to zero before the block's product is added; at k = 7, after the addition, the output block
  is written as the accumulator plus twice the product of the down projection's block with the second factor's
  block; at the other points the output's buffer is left alone. Here: the two conditions in closed form over the
  linear point number t (k = t mod 8), where the output window is idle, the memrefs the body is called with, and
  the region invariant's scoped part spelt with the accumulator as an owned memref.
-/
import proofs.«131997_j22600117911582_1_alg».proof.Proof.Gen.KernelIdeal.Launch
import proofs.«131997_j22600117911582_1_alg».proof.Proof.Gen.KernelIdeal.Skeleton
import proofs.«131997_j22600117911582_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window that
    is not fetched at a point has the block index of the point before, and the body leaves its block in place). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-- "The column block is the first": the reset's condition, from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "The column block is the last": the condition of the output's store. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The five input windows are never idle; the output window is idle, and not written back, except at the last column block. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- Each window's current staging memref at point t, as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1 : Memref sig .tc .vmem S1024x1024 .f32 := Memref.whole cc1_scratch0
/-- Views through which the output's and the accumulator's contents are stated. -/
abbrev VO1 : View sig .tc .vmem S1024x1024 .f32 := (Memref.whole cc1_stg5_0 : Memref sig .tc .vmem S1024x1024 .f32).view
abbrev VS1 : View sig .tc .vmem S1024x1024 .f32 := scM1.view

/-- The last of eight separate parts may be named first. -/
theorem sep_last_first {M : Type} [URA M] (A1 A2 A3 A4 A5 A6 A7 S : sProp M) :
    iprop(A1 ∗ A2 ∗ A3 ∗ A4 ∗ A5 ∗ A6 ∗ A7 ∗ S) = iprop(S ∗ A1 ∗ A2 ∗ A3 ∗ A4 ∗ A5 ∗ A6 ∗ A7) := by
  have h1 : iprop(A1 ∗ A2 ∗ A3 ∗ A4 ∗ A5 ∗ A6 ∗ A7 ∗ S) ⊢ iprop(S ∗ A1 ∗ A2 ∗ A3 ∗ A4 ∗ A5 ∗ A6 ∗ A7) := by
    iintro ⟨H1, H2, H3, H4, H5, H6, H7, HS⟩
    isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  have h2 : iprop(S ∗ A1 ∗ A2 ∗ A3 ∗ A4 ∗ A5 ∗ A6 ∗ A7) ⊢ iprop(A1 ∗ A2 ∗ A3 ∗ A4 ∗ A5 ∗ A6 ∗ A7 ∗ S) := by
    iintro ⟨HS, H1, H2, H3, H4, H5, H6, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  exact Idealize.SL.BI.Entails.antisymm h1 h2

/-- The region's scoped rest without the accumulator: the other seven scoped buffers (the first region's) each at
    some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region's invariant at entry: the accumulator as a memref owned at some contents, the first region's scoped
    buffers each at some contents, and the generator register at some state. -/
theorem PhiA1_eq (c : Dev nD) :
    (Pipeline.ΦA spec1 c : sProp 𝕄)
      = iprop(iprop((∃ d, owns (c : Thread nD τ) scM1 fullShare d) ∗ others1 (F := F) c) ∗ (∃ r, prngReg c r)) := by
  unfold Pipeline.ΦA others1; rw [scopedRest1_eq]; simp only [scM1, owns_whole]
  congr 1
  exact sep_last_first _ _ _ _ _ _ _ _

end Cert.KernelIdeal.Fr

end
-- ==== Proof.KI.Run1A.lean ====
/-
  Region 1's body at a point of the FIRST column block (reset taken, output's store not): from the five input
  blocks at their contents, the output's buffer at contents it hands back untouched and the accumulator at anything,
  the body runs to the end leaving the inputs as they were and the accumulator with two stores written (the zero
  splat, then zero plus the block's product). The stores are listed as pieces, the last first.
-/
import proofs.«131997_j22600117911582_1_alg».proof.Proof.KI.Cases1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x512 .f32) (x1 : Vec F S1024x512 .i32) (x2 : Vec F S1024x1 .f32) (x3 : Vec F S1024x64 .f32) (x4 : Vec F S1024x64 .f32) :
    { LS0 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.Run1B.lean ====
/-
  Region 1's body at a point of a MIDDLE column block (neither reset nor output's store): the accumulator comes in
  at what the point before left and goes out with one store written (itself plus the block's product); the output's
  buffer is handed back untouched.
-/
import proofs.«131997_j22600117911582_1_alg».proof.Proof.KI.Run1A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x512 .f32) (x1 : Vec F S1024x512 .i32) (x2 : Vec F S1024x1 .f32) (x3 : Vec F S1024x64 .f32) (x4 : Vec F S1024x64 .f32) (xs0 : Vec F S1024x1024 .f32) :
    { LS0 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.Run1C.lean ====
/-
  Region 1's body at a point of the LAST column block (output's store taken, reset not): the accumulator comes in
  at what the point before left, one store adds the block's product, and the output's buffer, handed in at anything,
  goes out with one store written (the accumulator's new contents plus twice the product of the down projection's
  block with the second factor's block).
-/
import proofs.«131997_j22600117911582_1_alg».proof.Proof.KI.Run1B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x512 .f32) (x1 : Vec F S1024x512 .i32) (x2 : Vec F S1024x1 .f32) (x3 : Vec F S1024x64 .f32) (x4 : Vec F S1024x64 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Fr

end
-- ==== Proof.KI.Region1.lean ====
/-
  Region 1 as the pipeline's proof data. After the body at point t (column block k = t mod 8): the accumulator
  holds, at k = 0, zero plus the block's product, and at k > 0 what the point before left plus the block's product;
  the output's buffer holds, at k = 7, the accumulator plus twice the low-rank block's product, and is left alone
  elsewhere. The region's invariant keeps the accumulator at exactly those contents between points. From these: the
  body obligation at every point, by the three runs.
-/
import proofs.«131997_j22600117911582_1_alg».proof.Proof.KI.Run1C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What each case leaves -/

theorem scover1_A (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 : Vec F S1024x512 .f32) (x1 : Vec F S1024x512 .i32) (x2 : Vec F S1024x1 .f32) (x3 : Vec F S1024x64 .f32) (x4 : Vec F S1024x64 .f32) (y : S1024x1024.Idx) :
    ∃ pc ∈ (kernelRun1_A c i arg3 harg3 arg4 harg4 arg5 harg5 arg6 harg6 arg7 harg7 arg8 harg8 arg9 harg9 hc0 hc1 x0 x1 x2 x3 x4).1, y ∈ pc.1.set :=
  View.cover_of_tiledL (kernelRun1_A c i arg3 harg3 arg4 harg4 arg5 harg5 arg6 harg6 arg7 harg7 arg8 harg8 arg9 harg9 hc0 hc1 x0 x1 x2 x3 x4).1 S1024x1024.size (by sl_kernel_rfl) y
/-- The accumulator after a first-block point. -/
def sout1_A (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 : Vec F S1024x512 .f32) (x1 : Vec F S1024x512 .i32) (x2 : Vec F S1024x1 .f32) (x3 : Vec F S1024x64 .f32) (x4 : Vec F S1024x64 .f32) : Vec F S1024x1024 .f32 :=
  VS1.read (Elt F) (VS1.writes (Elt F) VS1.junk (kernelRun1_A c i arg3 harg3 arg4 harg4 arg5 harg5 arg6 harg6 arg7 harg7 arg8 harg8 arg9 harg9 hc0 hc1 x0 x1 x2 x3 x4).1)

theorem scover1_B (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 : Vec F S1024x512 .f32) (x1 : Vec F S1024x512 .i32) (x2 : Vec F S1024x1 .f32) (x3 : Vec F S1024x64 .f32) (x4 : Vec F S1024x64 .f32) (xs0 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 x3 x4 xs0).1, y ∈ pc.1.set :=
  View.cover_of_tiledL (kernelRun1_B c i arg3 harg3 arg4 harg4 arg5 harg5 arg6 harg6 arg7 harg7 arg8 harg8 arg9 harg9 hc0 hc1 x0 x1 x2 x3 x4 xs0).1 S1024x1024.size (by sl_kernel_rfl) y
/-- The accumulator after a middle-block point. -/
def sout1_B (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 : Vec F S1024x512 .f32) (x1 : Vec F S1024x512 .i32) (x2 : Vec F S1024x1 .f32) (x3 : Vec F S1024x64 .f32) (x4 : Vec F S1024x64 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 arg9 harg9 hc0 hc1 x0 x1 x2 x3 x4 xs0).1)

theorem cover1_C (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x512 .f32) (x1 : Vec F S1024x512 .i32) (x2 : Vec F S1024x1 .f32) (x3 : Vec F S1024x64 .f32) (x4 : Vec F S1024x64 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x1024.size (by sl_kernel_rfl) y
/-- The output's buffer after a last-block point. -/
def out1_C (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x512 .f32) (x1 : Vec F S1024x512 .i32) (x2 : Vec F S1024x1 .f32) (x3 : Vec F S1024x64 .f32) (x4 : Vec F S1024x64 .f32) (xs0 : Vec F S1024x1024 .f32) : Vec F S1024x1024 .f32 :=
  VO1.read (Elt F) (VO1.writes (Elt F) VO1.junk (kernelRun1_C c i arg3 harg3 arg4 harg4 arg5 harg5 arg6 harg6 arg7 harg7 arg8 harg8 arg9 harg9 hc0 hc1 x0 x1 x2 x3 x4 xs0).1)
theorem scover1_C (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x512 .f32) (x1 : Vec F S1024x512 .i32) (x2 : Vec F S1024x1 .f32) (x3 : Vec F S1024x64 .f32) (x4 : Vec F S1024x64 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x1024.size (by sl_kernel_rfl) y
/-- The accumulator after a last-block point. -/
def sout1_C (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x512 .f32) (x1 : Vec F S1024x512 .i32) (x2 : Vec F S1024x1 .f32) (x3 : Vec F S1024x64 .f32) (x4 : Vec F S1024x64 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 x4 xs0).2.1)

/-! ## Point by point -/

/-- THE ACCUMULATION: after the body at position n, the pair (output's buffer, accumulator). Where the output window
    is idle its component is a placeholder nothing reads (the accumulator's contents again). -/
def outsAt1 (c : Dev nD) : (n : ℕ) → n < cfg1.N → Vec F S1024x1024 .f32 × Vec F S1024x1024 .f32
  | 0, hn => (sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position n: at the first point the scoped rest at anything; afterwards the accumulator at what the point
    before left, the first region's scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h1 : t.val % 8 = 7
  · have h0 : ¬ t.val % 8 = 0 := by omega
    have hz : t.val ≠ 0 := by omega
    rw [show (dat1 V c).leavesExact 5 t = owns (c : Thread nD τ) (ms1_5 t) fullShare ((dat1 V c).after 5 t) from by
      unfold Dat.leavesExact; rw [liveAt1_5 t ((hcond1_1 t).mpr h1)], after1_5]
    rw [outsAt1_C V c t h0 h1]
    unfold out1_C sout1_C; (try dsimp only)
    rw [PhiS1_castSucc V c t, PhiS1_pos V c _ _ hz]
    iintro ⟨⟨⟨HS0, Hoth⟩, Hg⟩, Ho, ⟨%d0, H0⟩, ⟨%d1, H1⟩, ⟨%d2, H2⟩, ⟨%d3, H3⟩, ⟨%d4, H4⟩, ⟨%d5, H5⟩⟩
    iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hg Hoth]
    · isplitl [HS0 Hoth]
      · isplitl [HS0]
        · unfold owns; iexists _; isplitr
          swap; · iexact HS0
          ipureintro; exact View.read_writes_of_cover _ _ _ _ _ (scover1_C c _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_C c _ _ _ _ _ _ _ _ _ _ _ _ _ _ _ _ _ _ _ _ _ _ _)
  · rw [Dat.leavesExact_idle (dat1 V c) 5 t (idleAt1_5 t (fun h => h1 ((hcond1_1 t).mp h))) (noFlush1_5 t (fun h => h1 ((hcond1_1 t).mp h)))]
    by_cases h0 : t.val % 8 = 0
    · rw [outsAt1_A V c t h0 h1]
      unfold sout1_A; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover1_A c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg Hoth]
        · isplitl [HS0 Hoth]
          · isplitl [HS0]
            · unfold owns; iexists _; isplitr
              swap; · iexact HS0
              ipureintro; exact View.read_writes_of_cover _ _ _ _ _ (scover1_A c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · have hz : t.val ≠ 0 := by omega
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

end Region1

end Cert.KernelIdeal.Fr

end
-- ==== Proof.KI.Assemble.lean ====
/-
  The whole program as four segments: the reshape of the activations to [8192, 4096]; region 0 (the down
  projection); region 1 (the base product plus twice the low-rank term); the reshape of the result back to
  [4, 2048, 4096]. Between segments every unscoped buffer is held at named contents W0 … W4: the launch memory, then
  each host operation applied, then each region's arrays at what its write-backs leave. The run ends with the
  result buffer at W4's contents and every argument as launched.
-/
import proofs.«131997_j22600117911582_1_alg».proof.Proof.KI.Region0
import proofs.«131997_j22600117911582_1_alg».proof.Proof.KI.Region1
import proofs.«131997_j22600117911582_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After region 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last reshape. -/
abbrev W4 : Dev nD → Valuation τ sig (Elt F) := fun c => StableHlo.after hostOps2 (W3 m c)

/-! ## The arguments end as launched -/

/-- main_arg0 reaches the end as launched: no host operation writes it and a region at most reads it through an input window. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- main_arg1 reaches the end as launched: no host operation writes it and a region at most reads it through an input window. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := (W3_arr m c 1).trans (((dat1 (V2 m) c).arrAt_in 1 rfl _).trans (A_eq1 (V2 m) c 1))
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- main_arg2 reaches the end as launched: no host operation writes it and a region at most reads it through an input window. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := (W3_arr m c 2).trans (((dat1 (V2 m) c).arrAt_in 2 rfl _).trans (A_eq1 (V2 m) c 2))
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- main_arg3 reaches the end as launched: no host operation writes it and a region at most reads it through an input window. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := (W2_arr m c 1).trans (((dat0 (V1 m) c).arrAt_in 1 rfl _).trans (A_eq0 (V1 m) c 1))
    _ = W0 m c (Proc.devRef .tc main_arg3) := StableHlo.after_of_writes_sub hostOps0 _ hostOps0_writes (by decide)
    _ = m ((c : Thread nD τ).loc main_arg3) := rfl

/-- main_arg4 reaches the end as launched: no host operation writes it and a region at most reads it through an input window. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := (W3_arr m c 3).trans (((dat1 (V2 m) c).arrAt_in 3 rfl _).trans (A_eq1 (V2 m) c 3))
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

abbrev adm : (p : Fin 2) → (pcfgs (F := F) p).Adm := fun p => (cfgs p).toPCfg_adm
/-- Each region's proof data at its entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec0 c ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine Idealize.SL.BI.BIBase.Entails.trans (show (pdats m 0 c).Φ (Fin.last _) ⊢ Pipeline.ΦA spec0 c from hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec1 c ⊢ (pdats m 1 c).Φ 0 from hin1 (V2 m) c)
    unfold Pipeline.ΦA
    iintro ⟨Hp, -, Hr⟩
    isplitl [Hr]; · iexact Hr
    iexact Hp
  hout c := by
    rw [Pipeline.ownSems0_none]
    refine Idealize.SL.BI.BIBase.Entails.trans (show (pdats m 1 c).Φ (Fin.last _) ⊢ Pipeline.ΦA spec1 c from hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution of the program from memory m with zero counters terminates, nothing faulting, and
    ends with the result buffer at W4's contents and every argument array as launched. -/
theorem run_main : θ_run defs (onTc (τ := τ) (main (F := F))) ⟨m, fun _ => 0, ρ⟩ (fun r => ∀ c : Dev nD,
      r.2.mem ((c.tc : Thread nD τ).loc main_v3) = W4 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v3 (by decide)),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.KernelIdeal.Fr

end
-- ==== Proof.KI.Value0a.lean ====
/-
  What region 0's three kinds of point leave, as values. At a first-block point the accumulator ends at the block's
  product added to the zero splat; at a later point at the block's product added to what it held; at a last-block
  point the output's buffer receives exactly the accumulator's new contents. Each is the payload of the body's one
  covering store, its loads reading whole buffers.
-/
import proofs.«131997_j22600117911582_1_alg».proof.Proof.KI.Region0
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem sout0_B_eq (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i) (x0 : Vec F S1024x1024 .f32) (x1 : Vec F S64x1024 .f32) (xs0 : Vec F S1024x64 .f32) :
    sout0_B c i arg2 harg2 arg3 harg3 arg4 harg4 arg5 harg5 hc0 hc1 x0 x1 xs0 = k0_pay2 x0 x1 xs0 := by
  unfold sout0_B
  rw [View.read_writes_eq_canon _ _ _ (scover0_B c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread, View.ld_unit_zero (S := S1024x1024) hz2, View.ld_unit_zero (S := S64x1024) hz2, View.ld_unit_zero (S := S1024x64) hz2]

theorem sout0_A_eq (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i) (x0 : Vec F S1024x1024 .f32) (x1 : Vec F S64x1024 .f32) :
    sout0_A c i arg2 harg2 arg3 harg3 arg4 harg4 arg5 harg5 hc0 hc1 x0 x1 = k0_pay2 x0 x1 (k0_pay1 (F := F)) := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S1024x64) hz2, View.readCov_unit_zero (S := S1024x64) _ hz2]
  simp only [View.readAt_eq_ld, harg2.read_unread, harg3.read_unread, harg5.read_unread, View.ld_unit_zero (S := S1024x1024) hz2, View.ld_unit_zero (S := S64x1024) hz2, View.ld_unit_zero (S := S1024x64) hz2]

theorem sout0_C_eq (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x1024 .f32) (x1 : Vec F S64x1024 .f32) (xs0 : Vec F S1024x64 .f32) :
    sout0_C c i arg2 harg2 arg3 harg3 arg4 harg4 arg5 harg5 hc0 hc1 x0 x1 xs0 = k0_pay2 x0 x1 xs0 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1024x1024) hz2, View.ld_unit_zero (S := S64x1024) hz2, View.ld_unit_zero (S := S1024x64) hz2]

theorem out0_C_eq (c : Dev nD) (i : grid0.Coords) (arg2 : Memref sig .tc .vmem S1024x1024 .f32) (harg2 : arg2.IsWhole) (arg3 : Memref sig .tc .vmem S64x1024 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x1024 .f32) (x1 : Vec F S64x1024 .f32) (xs0 : Vec F S1024x64 .f32) :
    out0_C c i arg2 harg2 arg3 harg3 arg4 harg4 arg5 harg5 hc0 hc1 x0 x1 xs0 = k0_pay2 x0 x1 xs0 := by
  unfold out0_C
  rw [View.read_writes_eq_canon _ _ _ (cover0_C c i arg2 harg2 arg3 harg3 arg4 harg4 arg5 harg5 hc0 hc1 x0 x1 xs0)]
  unfold kernelRun0_C
  dsimp only
  sl_unfold_words
  rw [View.canon_unit_zero hz2, View.readCov_unit_zero (S := S1024x64) _ hz2]
  simp only [View.readAt_eq_ld, harg2.read_unread, harg3.read_unread, harg5.read_unread, View.ld_unit_zero (S := S1024x1024) hz2, View.ld_unit_zero (S := S64x1024) hz2, View.ld_unit_zero (S := S1024x64) hz2]

end Cert.KernelIdeal.Fr

end
-- ==== Proof.KI.Value0b.lean ====
/-
  Region 0's accumulation in closed form. After the body at point n the accumulator holds the block product of that
  point added to: the zero splat when n is a first-block point, what the point before left otherwise. The pipeline's
  point-by-point data is this recursion (by induction on the point), and at a last-block point the output's buffer
  holds the same contents.
-/
import proofs.«131997_j22600117911582_1_alg».proof.Proof.KI.Value0a

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- The accumulator after point n. -/
def acc0 (c : Dev nD) : (n : ℕ) → n < cfg0.N → Vec F S1024x64 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (if (n + 1) % 4 = 0 then k0_pay1 (F := F) else acc0 c n (Nat.lt_of_succ_lt h))

theorem acc0_succ (c : Dev nD) (n : ℕ) (h : n + 1 < cfg0.N) :
    acc0 V c (n + 1) h = k0_pay2 (iblk0 V c 0 ⟨n + 1, h⟩) (iblk0 V c 1 ⟨n + 1, h⟩) (if (n + 1) % 4 = 0 then k0_pay1 (F := F) else acc0 V c n (Nat.lt_of_succ_lt h)) := rfl

theorem acc0_zero (c : Dev nD) (h : 0 < cfg0.N) :
    acc0 V c 0 h = k0_pay2 (iblk0 V c 0 ⟨0, h⟩) (iblk0 V c 1 ⟨0, h⟩) (k0_pay1 (F := F)) := rfl

theorem outsAt0_snd (c : Dev nD) : ∀ (n : ℕ) (h : n < cfg0.N), (outsAt0 V c n h).2 = acc0 V c n h := by
  intro n
  induction n with
  | zero =>
    intro h
    rw [acc0_zero, outsAt0_A V c ⟨0, h⟩ (show (0 : ℕ) % 4 = 0 from rfl) (show ¬ (0 : ℕ) % 4 = 3 by decide)]
    dsimp only
    rw [sout0_A_eq]
  | succ n ih =>
    intro h
    rw [acc0_succ]
    by_cases h1 : (n + 1) % 4 = 3
    · have h0 : ¬ (n + 1) % 4 = 0 := by omega
      rw [outsAt0_C V c ⟨n + 1, h⟩ h0 h1, if_neg h0]
      dsimp only
      rw [sout0_C_eq]
      exact congrArg (k0_pay2 (iblk0 V c 0 ⟨n + 1, h⟩) (iblk0 V c 1 ⟨n + 1, h⟩)) (ih _)
    · by_cases h0 : (n + 1) % 4 = 0
      · rw [outsAt0_A V c ⟨n + 1, h⟩ h0 h1, if_pos h0]
        dsimp only
        rw [sout0_A_eq]
      · rw [outsAt0_B V c ⟨n + 1, h⟩ h0 h1, if_neg h0]
        dsimp only
        rw [sout0_B_eq]
        exact congrArg (k0_pay2 (iblk0 V c 0 ⟨n + 1, h⟩) (iblk0 V c 1 ⟨n + 1, h⟩)) (ih _)

/-- At a last-block point the output's buffer holds the accumulator's contents. -/
theorem outsAt0_fst (c : Dev nD) (t : Fin cfg0.N) (h1 : t.val % 4 = 3) : (outsAt0 V c t.val t.isLt).1 = acc0 V c t.val t.isLt := by
  have h0 : ¬ t.val % 4 = 0 := by omega
  rw [← outsAt0_snd V c t.val t.isLt, outsAt0_C V c t h0 h1]
  dsimp only
  rw [out0_C_eq, sout0_C_eq]

end Region0

end Cert.KernelIdeal.Fr

end
-- ==== Proof.Spec.lean ====
/-
  The function both programs compute, entry by entry, over the extended reals.
  With x : [4, 2048, 4096] the activations, q : [4096, 4096] the signed integer codes, s : [4096, 1] the
  per-row scales, a : [64, 4096] and b : [4096, 64] the two low-rank factors:

      out[p, t, o] = Σ_i x[p, t, i] · (q[o, i] · s[o, 0])  +  2 · Σ_r (Σ_i x[p, t, i] · a[r, i]) · b[o, r]

  The code q[o, i] is read as the signed integer it denotes; 2 is the float literal 2.0, kept as its word.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 2048, 4096]⟩
abbrev SQ : Shape := ⟨2, ![4096, 4096]⟩
abbrev SS : Shape := ⟨2, ![4096, 1]⟩
abbrev SA : Shape := ⟨2, ![64, 4096]⟩
abbrev SB : Shape := ⟨2, ![4096, 64]⟩

variable (x : SX.Idx → EReal) (q : SQ.Idx → BitVec 32) (s : SS.Idx → EReal) (a : SA.Idx → EReal) (b : SB.Idx → EReal)

/-- The dequantized weight: the signed code times its row's scale. -/
def weight (o i : Fin 4096) : EReal := (((q (ix2 o i)).toInt : ℝ) : EReal) * s (ix2 o (0 : Fin 1))

/-- The base product: row (p, t) of the activations against row o of the dequantized weights. -/
def base (p : Fin 4) (t : Fin 2048) (o : Fin 4096) : EReal := ∑ i : Fin 4096, x (ix3 p t i) * weight q s o i

/-- The down projection: row (p, t) of the activations against row r of the first factor. -/
def down (p : Fin 4) (t : Fin 2048) (r : Fin 64) : EReal := ∑ i : Fin 4096, x (ix3 p t i) * a (ix2 r i)

/-- The low-rank term: the down projection against row o of the second factor. -/
def lora (p : Fin 4) (t : Fin 2048) (o : Fin 4096) : EReal := ∑ r : Fin 64, down x a p t r * b (ix2 o r)

/-- The float literal 2.0. -/
def two : EReal := Ideal.ofBits .f32 0x40000000#32

/-- One entry of the result. -/
def outAt (p : Fin 4) (t : Fin 2048) (o : Fin 4096) : EReal := base x q s p t o + two * lora x a b p t o

/-- The whole result array. -/
def out : SX.Idx → EReal := fun j => outAt x q s a b (j 0) (j 1) (j 2)

theorem out_ix3 (p : Fin 4) (t : Fin 2048) (o : Fin 4096) : out x q s a b (ix3 p t o) = outAt x q s a b p t o := rfl

end Cert.Spec

end
-- ==== Proof.KI.Payload.lean ====
/-
  The two kernels' stored values READ AT AN INDEX, at the ideal values (a float an extended real, every operation its
  textbook one, a change of float format the identity).

  The first kernel accumulates, over the column blocks j of one row block of the activations x, the down projection
  against the first low-rank factor a:   acc[p, r] ← acc[p, r] + Σ_j x[p, j] · a[r, j],   from acc = 0.
  The second accumulates, over the column blocks of x and of the integer codes q with their per-row scales s, the base
  product against the dequantized weights:   acc[p, n] ← acc[p, n] + Σ_j x[p, j] · (q[n, j] · s[n, 0]),   from acc = 0,
  and at the last block adds twice the low-rank term:   out[p, n] = acc[p, n] + 2 · Σ_r xa[p, r] · b[n, r].

  Each contraction is over the last axis of both operands; its sum is re-indexed from the one-axis contraction shape to
  the axis's coordinate.
-/
import proofs.«131997_j22600117911582_1_alg».proof.Proof.Gen.KernelIdeal.Skeleton
import proofs.«131997_j22600117911582_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Val

open Idealize.ShloMosaic Idealize.ShloMosaic.ValueIdx Cert.KernelIdeal Cert.KernelIdeal.Gen

/-! ## A column broadcast -/

/-- An [a, 1] array broadcast to [a, b] reads, at (n, j), the operand's one column at row n. -/
theorem broadcastTo_a1_ab_apply {α : Type} {a b : ℕ} (v : (⟨2, ![a, 1]⟩ : Shape).Idx → α)
    (h : (⟨2, ![a, 1]⟩ : Shape).Broadcasts ⟨2, ![a, b]⟩) (n : Fin a) (j : Fin b) :
    broadcastTo ⟨2, ![a, b]⟩ v h (ix2 n j) = v (ix2 n (0 : Fin 1)) := by
  refine broadcastTo_apply v h (ix2 n j) (ix2 n (0 : Fin 1)) fun ax => ?_
  match ax with
  | ⟨0, _⟩ =>
    show n.val = if a = 1 then 0 else n.val
    split
    · have := n.isLt; omega
    · rfl
  | ⟨1, _⟩ => rfl

/-! ## The three contractions at an index -/

theorem dot0_lhs0 (i : S1024x64.Idx) (q : dot_S1024x1024_S64x1024_S1024x64_1_1_0_0_n_n.contr.Idx) :
    (dot_S1024x1024_S64x1024_S1024x64_1_1_0_0_n_n.lhsIdx i q 0).val = (i 0).val := by
  unfold DotDims.lhsIdx
  rw [dif_neg (show ¬(0 : Fin S1024x1024.rank) ∈ dot_S1024x1024_S64x1024_S1024x64_1_1_0_0_n_n.lhsBatch by decide), dif_pos (show (0 : Fin S1024x1024.rank) ∈ dot_S1024x1024_S64x1024_S1024x64_1_1_0_0_n_n.lhsNonContracting by decide)]
  rfl
theorem dot0_lhs1 (i : S1024x64.Idx) (q : dot_S1024x1024_S64x1024_S1024x64_1_1_0_0_n_n.contr.Idx) :
    (dot_S1024x1024_S64x1024_S1024x64_1_1_0_0_n_n.lhsIdx i q 1).val = (q ⟨0, by decide⟩).val :=
  dot_S1024x1024_S64x1024_S1024x64_1_1_0_0_n_n.lhsIdx_val_of_single rfl i q
theorem dot0_rhs0 (i : S1024x64.Idx) (q : dot_S1024x1024_S64x1024_S1024x64_1_1_0_0_n_n.contr.Idx) :
    (dot_S1024x1024_S64x1024_S1024x64_1_1_0_0_n_n.rhsIdx i q 0).val = (i 1).val := by
  unfold DotDims.rhsIdx
  rw [dif_neg (show ¬(0 : Fin S64x1024.rank) ∈ dot_S1024x1024_S64x1024_S1024x64_1_1_0_0_n_n.rhsBatch by decide), dif_pos (show (0 : Fin S64x1024.rank) ∈ dot_S1024x1024_S64x1024_S1024x64_1_1_0_0_n_n.rhsNonContracting by decide)]
  rfl
theorem dot0_rhs1 (i : S1024x64.Idx) (q : dot_S1024x1024_S64x1024_S1024x64_1_1_0_0_n_n.contr.Idx) :
    (dot_S1024x1024_S64x1024_S1024x64_1_1_0_0_n_n.rhsIdx i q 1).val = (q ⟨0, by decide⟩).val :=
  dot_S1024x1024_S64x1024_S1024x64_1_1_0_0_n_n.rhsIdx_val_of_single rfl i q

/-- Rows p of a [1024, 1024] block and r of a [64, 1024] block, contracted over their last axis. -/
theorem dot0_apply (l : FVec Ideal S1024x1024 .bf16) (m : FVec Ideal S64x1024 .bf16) (p : Fin 1024) (r : Fin 64) :
    matmul dot_S1024x1024_S64x1024_S1024x64_1_1_0_0_n_n none l m (constant (F := Ideal) S1024x64 .f32 0x00000000#32) (ix2 p r)
      = ∑ j : Fin 1024, l (ix2 p j) * m (ix2 r j) := by
  show FloatOps.matmul dot_S1024x1024_S64x1024_S1024x64_1_1_0_0_n_n none l m (constant (F := Ideal) S1024x64 .f32 0x00000000#32) (ix2 p r) = _
  rw [Ideal.matmul_constant_zero_apply, ← Equiv.sum_comp (contrEquiv1 dot_S1024x1024_S64x1024_S1024x64_1_1_0_0_n_n 1024 rfl rfl).symm]
  refine Finset.sum_congr rfl fun k _ => ?_
  have hk := contrEquiv1_symm_val dot_S1024x1024_S64x1024_S1024x64_1_1_0_0_n_n 1024 rfl rfl k
  have el : dot_S1024x1024_S64x1024_S1024x64_1_1_0_0_n_n.lhsIdx (ix2 p r) ((contrEquiv1 dot_S1024x1024_S64x1024_S1024x64_1_1_0_0_n_n 1024 rfl rfl).symm k) = ix2 p k := funext fun ax => Fin.ext (by
    match ax with
    | ⟨0, _⟩ => exact dot0_lhs0 _ _
    | ⟨1, _⟩ => exact (dot0_lhs1 _ _).trans hk)
  have er : dot_S1024x1024_S64x1024_S1024x64_1_1_0_0_n_n.rhsIdx (ix2 p r) ((contrEquiv1 dot_S1024x1024_S64x1024_S1024x64_1_1_0_0_n_n 1024 rfl rfl).symm k) = ix2 r k := funext fun ax => Fin.ext (by
    match ax with
    | ⟨0, _⟩ => exact dot0_rhs0 _ _
    | ⟨1, _⟩ => exact (dot0_rhs1 _ _).trans hk)
  rw [el, er]

theorem dot1_lhs0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem dot1_lhs1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem dot1_rhs0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem dot1_rhs1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- Rows p and n of two [1024, 512] blocks, contracted over their last axis. -/
theorem dot1_apply (l : FVec Ideal S1024x512 .bf16) (m : FVec Ideal S1024x512 .bf16) (p : Fin 1024) (n : Fin 1024) :
    matmul dot_S1024x512_S1024x512_S1024x1024_1_1_0_0_n_n none l m (constant (F := Ideal) S1024x1024 .f32 0x00000000#32) (ix2 p n)
      = ∑ j : Fin 512, l (ix2 p j) * m (ix2 n j) := by
  show FloatOps.matmul dot_S1024x512_S1024x512_S1024x1024_1_1_0_0_n_n none l m (constant (F := Ideal) S1024x1024 .f32 0x00000000#32) (ix2 p n) = _
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p n) ((contrEquiv1 dot_S1024x512_S1024x512_S1024x1024_1_1_0_0_n_n 512 rfl rfl).symm k) = ix2 p k := funext fun ax => Fin.ext (by
    match ax with
    | ⟨0, _⟩ => exact dot1_lhs0 _ _
    | ⟨1, _⟩ => exact (dot1_lhs1 _ _).trans hk)
  have er : dot_S1024x512_S1024x512_S1024x1024_1_1_0_0_n_n.rhsIdx (ix2 p n) ((contrEquiv1 dot_S1024x512_S1024x512_S1024x1024_1_1_0_0_n_n 512 rfl rfl).symm k) = ix2 n k := funext fun ax => Fin.ext (by
    match ax with
    | ⟨0, _⟩ => exact dot1_rhs0 _ _
    | ⟨1, _⟩ => exact (dot1_rhs1 _ _).trans hk)
  rw [el, er]

theorem dot2_lhs0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem dot2_lhs1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem dot2_rhs0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem dot2_rhs1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- Rows p and n of two [1024, 64] blocks, contracted over their last axis. -/
theorem dot2_apply (l : FVec Ideal S1024x64 .bf16) (m : FVec Ideal S1024x64 .bf16) (p : Fin 1024) (n : Fin 1024) :
    matmul dot_S1024x64_S1024x64_S1024x1024_1_1_0_0_n_n none l m (constant (F := Ideal) S1024x1024 .f32 0x00000000#32) (ix2 p n)
      = ∑ r : Fin 64, l (ix2 p r) * m (ix2 n r) := by
  show FloatOps.matmul dot_S1024x64_S1024x64_S1024x1024_1_1_0_0_n_n none l m (constant (F := Ideal) S1024x1024 .f32 0x00000000#32) (ix2 p n) = _
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p n) ((contrEquiv1 dot_S1024x64_S1024x64_S1024x1024_1_1_0_0_n_n 64 rfl rfl).symm k) = ix2 p k := funext fun ax => Fin.ext (by
    match ax with
    | ⟨0, _⟩ => exact dot2_lhs0 _ _
    | ⟨1, _⟩ => exact (dot2_lhs1 _ _).trans hk)
  have er : dot_S1024x64_S1024x64_S1024x1024_1_1_0_0_n_n.rhsIdx (ix2 p n) ((contrEquiv1 dot_S1024x64_S1024x64_S1024x1024_1_1_0_0_n_n 64 rfl rfl).symm k) = ix2 n k := funext fun ax => Fin.ext (by
    match ax with
    | ⟨0, _⟩ => exact dot2_rhs0 _ _
    | ⟨1, _⟩ => exact (dot2_rhs1 _ _).trans hk)
  rw [el, er]

/-! ## The first kernel: the down projection's accumulator -/

/-- At the first column block the accumulator is reset to zero. -/
theorem pay0_reset (p : Fin 1024) (r : Fin 64) : k0_pay1 (F := Ideal) (ix2 p r) = 0 := by
  unfold k0_pay1
  rw [shapeCast_self]
  exact Ideal.ofBits_zero_f32

/-- Every column block adds its product: row p of the activations' block against row r of the factor's. -/
theorem pay0_acc (x : Vec Ideal S1024x1024 .f32) (a : Vec Ideal S64x1024 .f32) (acc : Vec Ideal S1024x64 .f32) (p : Fin 1024) (r : Fin 64) :
    k0_pay2 (F := Ideal) x a acc (ix2 p r) = acc (ix2 p r) + ∑ j : Fin 1024, x (ix2 p j) * a (ix2 r j) := by
  unfold k0_pay2
  rw [shapeCast_self, addf_apply, dot0_apply, shapeCast_self]
  rfl

/-! ## The second kernel: the base product's accumulator, and the result -/

/-- At the first column block the accumulator is reset to zero. -/
theorem pay1_reset (p n : Fin 1024) : k1_pay1 (F := Ideal) (ix2 p n) = 0 := by
  unfold k1_pay1
  rw [shapeCast_self]
  exact Ideal.ofBits_zero_f32

/-- Every column block adds its product: row p of the activations' block against row n of the dequantized weights', each
    weight its signed code times its row's scale. -/
theorem pay1_acc (x : Vec Ideal S1024x512 .f32) (q : Vec Ideal S1024x512 .i32) (s : Vec Ideal S1024x1 .f32) (acc : Vec Ideal S1024x1024 .f32) (p n : Fin 1024) :
    k1_pay2 (F := Ideal) x q s acc (ix2 p n)
      = acc (ix2 p n) + ∑ j : Fin 512, x (ix2 p j) * ((((q (ix2 n j)).toInt : ℝ) : EReal) * s (ix2 n (0 : Fin 1))) := by
  unfold k1_pay2
  rw [shapeCast_self, addf_apply, dot1_apply, shapeCast_self]
  refine congrArg (acc (ix2 p n) + ·) (Finset.sum_congr rfl fun j _ => ?_)
  rw [truncf_apply, truncf_apply, mulf_apply, broadcastTo_a1_ab_apply]
  rfl

/-- At the last column block the result is the accumulator plus twice the low-rank term: row p of the down projection
    against row n of the second factor. -/
theorem pay1_out (xa : Vec Ideal S1024x64 .f32) (b : Vec Ideal S1024x64 .f32) (acc : Vec Ideal S1024x1024 .f32) (p n : Fin 1024) :
    k1_pay3 (F := Ideal) xa b acc (ix2 p n) = acc (ix2 p n) + Cert.Spec.two * ∑ r : Fin 64, xa (ix2 p r) * b (ix2 n r) := by
  unfold k1_pay3
  rw [addf_apply, mulf_apply, dot2_apply, shapeCast_self]
  rfl

end Cert.KernelIdeal.Val

end
-- ==== Proof.LibBlockSum.lean ====
/-
  Sums over an initial segment of a finite index range, taken block by block.
  For f : Fin N → M into an additive commutative monoid, `upto f n` is the sum of f over the indices
  below n.  It is zero at n = 0, it is the whole sum once n reaches N, and the sum over the first
  (k+1)·b indices is the sum over the first k·b indices plus the k-th block of b consecutive entries.
-/
import Mathlib.Algebra.BigOperators.Fin
import Mathlib.Algebra.BigOperators.Intervals

open scoped BigOperators

namespace Cert.BlockSum

variable {M : Type*} [AddCommMonoid M]

/-- The sum of `f` over the indices below `n`. -/
def upto {N : ℕ} (f : Fin N → M) (n : ℕ) : M := ∑ i : Fin N, if i.val < n then f i else 0

/-- The empty initial segment sums to zero. -/
theorem upto_zero {N : ℕ} (f : Fin N → M) : upto f 0 = 0 := by
  simp [upto]

/-- Once the bound reaches the size of the range, the initial segment is the whole range. -/
theorem upto_full {N : ℕ} (f : Fin N → M) (n : ℕ) (h : N ≤ n) : upto f n = ∑ i, f i := by
  unfold upto
  refine Finset.sum_congr rfl (fun i _ => ?_)
  rw [if_pos (lt_of_lt_of_le i.isLt h)]

/-- The k-th block of b consecutive indices lies inside the range when (k+1)·b ≤ N. -/
theorem block_lt {N k b : ℕ} (h : (k + 1) * b ≤ N) (j : Fin b) : k * b + j.val < N := by
  have hj := j.isLt
  rw [Nat.add_mul, Nat.one_mul] at h
  omega

/-- A sum over the first (k+1)·b indices is the sum over the first k·b indices plus the k-th block of b:
    Σ_{i < (k+1)·b} f i = Σ_{i < k·b} f i + Σ_{j < b} f (k·b + j). -/
theorem upto_add_block {N : ℕ} (f : Fin N → M) (k b : ℕ) (h : (k + 1) * b ≤ N) :
    upto f ((k + 1) * b) = upto f (k * b) + ∑ j : Fin b, f ⟨k * b + j.val, block_lt h j⟩ := by
  have hb : (k + 1) * b = k * b + b := by rw [Nat.add_mul, Nat.one_mul]
  -- the block, as the sum over the whole range of the entries with k·b ≤ i < k·b + b
  have hblock : (∑ j : Fin b, f ⟨k * b + j.val, block_lt h j⟩)
      = ∑ i : Fin N, if k * b ≤ i.val ∧ i.val < k * b + b then f i else 0 := by
    rw [← Finset.sum_filter]
    refine Finset.sum_bij (fun j _ => (⟨k * b + j.val, block_lt h j⟩ : Fin N)) ?_ ?_ ?_ ?_
    · intro j _
      simp only [Finset.mem_filter, Finset.mem_univ, true_and]
      have := j.isLt
      omega
    · intro j₁ _ j₂ _ he
      have := congrArg Fin.val he
      simp only at this
      exact Fin.ext (by omega)
    · intro i hi
      simp only [Finset.mem_filter, Finset.mem_univ, true_and] at hi
      exact ⟨⟨i.val - k * b, by omega⟩, Finset.mem_univ _, Fin.ext (by simp only; omega)⟩
    · intro j _
      rfl
  rw [hblock]
  unfold upto
  rw [← Finset.sum_add_distrib]
  refine Finset.sum_congr rfl (fun i _ => ?_)
  rw [hb]
  by_cases h1 : i.val < k * b
  · rw [if_pos (by omega), if_pos h1, if_neg (by omega), add_zero]
  · by_cases h2 : i.val < k * b + b
    · rw [if_pos h2, if_neg h1, if_pos ⟨by omega, h2⟩, zero_add]
    · rw [if_neg h2, if_neg h1, if_neg (by omega), add_zero]

end Cert.BlockSum
-- ==== Proof.KI.Value0c.lean ====
/-
  Region 0's result as a function of the arrays it finds. With X : [8192, 4096] the reshaped activations and
  A : [64, 4096] the first factor, the accumulator after point t (row block t / 4, column block k = t mod 4) holds at
  (p, r) the partial sum over the first (k + 1)·1024 columns i of X[(t/4)·1024 + p, i] · A[r, i]: at k = 0 it is zero
  plus the first block, afterwards the previous partial sum plus the next block. At k = 3 that is the whole sum over
  the 4096 columns, which is what the write-back puts in the [8192, 64] result; the eight write-backs cover it.
-/
import proofs.«131997_j22600117911582_1_alg».proof.Proof.KI.Value0b
import proofs.«131997_j22600117911582_1_alg».proof.Proof.KI.Payload
import proofs.«131997_j22600117911582_1_alg».proof.Proof.LibBlockSum

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Val Cert.BlockSum
open scoped BigOperators

section Region0
variable (V : (c : Dev nD) → (b : Ref sig .tc) → Buf (Elt Ideal) ((c : Thread nD τ).loc b)) (c : Dev nD)

/-- The windows' block indices over the grid: row block t / 4 and column block t mod 4. -/
theorem idx0 : ∀ t : Fin cfg0.N, win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = t.val / 4 ∧ win0_2.index t (1 : Fin 2) = 0 :=
  (by decide +kernel : ∀ t : Fin grid0.N, _)

/-- The reshaped activations and the first factor, as the region finds them. -/
def X0 : S8192x4096.Idx → EReal := V c main_v0
def A0 : S64x4096.Idx → EReal := V c main_arg3

/-- An entry of the activations' block at point t is the array's entry at row (t/4)·1024 + p, column (t mod 4)·1024 + j. -/
theorem iblk0_0_apply (t : Fin cfg0.N) (x : Vec Ideal S1024x1024 .f32) (hx : x = iblk0 V c 0 t) (p j : Fin 1024) (I : Fin 8192) (J : Fin 4096)
    (hI : I.val = t.val / 4 * 1024 + p.val) (hJ : J.val = t.val % 4 * 1024 + j.val) :
    x (ix2 p j) = X0 V c (ix2 I J) := by
  subst hx
  unfold iblk0
  rw [View.read_apply]
  show X0 V c _ = X0 V c _
  refine congrArg (X0 V c) ?_
  funext a; apply Fin.ext
  obtain ⟨e0, e1, -⟩ := idx0 t
  match a with
  | ⟨0, _⟩ => show win0_0.index t (0 : Fin 2) * 1024 + 1 * p.val = I.val; rw [e0, hI]; omega
  | ⟨1, _⟩ => show win0_0.index t (1 : Fin 2) * 1024 + 1 * j.val = J.val; rw [e1, hJ]; omega

/-- An entry of the factor's block at point t is the array's entry at row r, column (t mod 4)·1024 + j. -/
theorem iblk0_1_apply (t : Fin cfg0.N) (a : Vec Ideal S64x1024 .f32) (ha : a = iblk0 V c 1 t) (r : Fin 64) (j : Fin 1024) (J : Fin 4096)
    (hJ : J.val = t.val % 4 * 1024 + j.val) :
    a (ix2 r j) = A0 V c (ix2 r J) := by
  subst ha
  unfold iblk0
  rw [View.read_apply]
  show A0 V c _ = A0 V c _
  refine congrArg (A0 V c) ?_
  funext a; apply Fin.ext
  obtain ⟨-, -, e2, e3, -⟩ := idx0 t
  match a with
  | ⟨0, _⟩ => show win0_1.index t (0 : Fin 2) * 64 + 1 * r.val = r.val; rw [e2]; omega
  | ⟨1, _⟩ => show win0_1.index t (1 : Fin 2) * 1024 + 1 * j.val = J.val; rw [e3, hJ]; omega

/-- The products summed for the entry (I, r) of the down projection. -/
def term0 (I : Fin 8192) (r : Fin 64) : Fin 4096 → EReal :=
  fun i => X0 V c (ix2 I i) * A0 V c (ix2 r i)

/-- Row p of row block M. -/
def row0 (M : ℕ) (p : Fin 1024) : Fin 8192 := ⟨M % 8 * 1024 + p.val, by have := p.isLt; omega⟩

/-- The block's product at point t, entry (p, r): the k-th block of 1024 terms. -/
theorem block0 (t : Fin cfg0.N) (x : Vec Ideal S1024x1024 .f32) (hx : x = iblk0 V c 0 t) (a : Vec Ideal S64x1024 .f32) (ha : a = iblk0 V c 1 t)
    (p : Fin 1024) (r : Fin 64) (M : ℕ) (hM : M % 8 = t.val / 4) (k : ℕ) (hk : k = t.val % 4) (hb : (k + 1) * 1024 ≤ 4096) :
    ∑ j : Fin 1024, x (ix2 p j) * a (ix2 r j)
      = ∑ j : Fin 1024, term0 V c (row0 M p) r ⟨k * 1024 + j.val, block_lt hb j⟩ := by
  refine Finset.sum_congr rfl fun j _ => ?_
  rw [iblk0_0_apply V c t x hx p j (row0 M p) ⟨k * 1024 + j.val, block_lt hb j⟩ (by show M % 8 * 1024 + p.val = _; rw [hM]) (by show k * 1024 + j.val = _; rw [hk]),
    iblk0_1_apply V c t a ha r j ⟨k * 1024 + j.val, block_lt hb j⟩ (by show k * 1024 + j.val = _; rw [hk])]
  rfl

/-- A partial sum up to the end of block k is the partial sum up to its start plus the block. -/
theorem upto_step (f : Fin 4096 → EReal) (k K : ℕ) (hK : K = (k + 1) * 1024) (hb : (k + 1) * 1024 ≤ 4096) :
    upto f K = upto f (k * 1024) + ∑ j : Fin 1024, f ⟨k * 1024 + j.val, block_lt hb j⟩ := by
  subst hK; exact upto_add_block f k 1024 hb
/-- The partial sum up to the end of the first block is zero plus the block. -/
theorem upto_first (f : Fin 4096 → EReal) (K : ℕ) (hK : K = (0 + 1) * 1024) (hb : (0 + 1) * 1024 ≤ 4096) :
    upto f K = 0 + ∑ j : Fin 1024, f ⟨0 * 1024 + j.val, block_lt hb j⟩ := by
  have hz : upto f (0 * 1024) = 0 := by rw [Nat.zero_mul, upto_zero]
  rw [upto_step f 0 K hK hb, hz]

/-- THE ACCUMULATOR IS A PARTIAL SUM: after point n, at (p, r), the sum of the first (n mod 4 + 1)·1024 terms. -/
theorem acc0_apply : ∀ (n : ℕ) (h : n < cfg0.N) (p : Fin 1024) (r : Fin 64),
    acc0 V c n h (ix2 p r) = upto (term0 V c (row0 (n / 4) p) r) ((n % 4 + 1) * 1024) := by
  intro n
  induction n with
  | zero =>
    intro h p r
    show k0_pay2 (F := Ideal) _ _ _ (ix2 p r) = _
    rw [pay0_acc, pay0_reset, block0 V c ⟨0, h⟩ _ rfl _ rfl p r (0 / 4) (show (0 : ℕ) / 4 % 8 = 0 / 4 from rfl) 0 (show (0 : ℕ) = 0 % 4 from rfl) (by norm_num)]
    exact (upto_first _ _ (by norm_num) (by norm_num)).symm
  | succ n ih =>
    intro h p r
    have hN : n + 1 < 32 := lt_of_lt_of_eq h (show cfg0.N = 32 from N_0)
    rw [acc0_succ]
    by_cases h0 : (n + 1) % 4 = 0
    · rw [if_pos h0, pay0_acc, pay0_reset, block0 V c ⟨n + 1, h⟩ _ rfl _ rfl p r ((n + 1) / 4) (by show (n + 1) / 4 % 8 = (n + 1) / 4; omega) 0 (by show 0 = (n + 1) % 4; omega) (by norm_num)]
      exact (upto_first _ _ (by rw [h0]) (by norm_num)).symm
    · rw [if_neg h0, pay0_acc, ih, block0 V c ⟨n + 1, h⟩ _ rfl _ rfl p r (n / 4) (by show n / 4 % 8 = (n + 1) / 4; omega) (n % 4 + 1) (by show n % 4 + 1 = (n + 1) % 4; omega) (by omega)]
      rw [show (n + 1) / 4 = n / 4 from by omega]
      exact (upto_step _ (n % 4 + 1) _ (by congr 1; omega) (by omega)).symm

/-- One entry of the down projection. -/
def xaAt (I : Fin 8192) (r : Fin 64) : EReal := ∑ i : Fin 4096, term0 V c I r i
/-- The down projection, as the [8192, 64] array region 0 leaves. -/
def xa : S8192x64.Idx → EReal := fun i => xaAt V c (i 0) (i 1)

/-- At a last-block point the accumulator holds the whole sums of its row block. -/
theorem acc0_last (t : Fin cfg0.N) (h1 : t.val % 4 = 3) (y : S1024x64.Idx) (I : S8192x64.Idx)
    (hI0 : (I 0).val = t.val / 4 * 1024 + (y 0).val) (hI1 : (I 1).val = (y 1).val) :
    acc0 V c t.val t.isLt y = xa V c I := by
  have hN : t.val < 32 := lt_of_lt_of_eq t.isLt (show cfg0.N = 32 from N_0)
  obtain ⟨p, r, rfl⟩ : ∃ (p : Fin 1024) (r : Fin 64), y = ix2 p r := ⟨y 0, y 1, eq_ix2 y⟩
  rw [acc0_apply, upto_full _ _ (by rw [h1])]
  show xaAt V c _ r = xaAt V c (I 0) (I 1)
  have e0 : row0 (t.val / 4) p = I 0 := Fin.ext (by show t.val / 4 % 8 * 1024 + p.val = (I 0).val; rw [hI0]; show _ = t.val / 4 * 1024 + p.val; omega)
  have e1 : r = I 1 := Fin.ext hI1.symm
  rw [e0, e1]

/-- What a last-block point writes back is its block of the down projection. -/
theorem flushed0_eq (t : Fin cfg0.N) (hf : (cfg0.win 2).flush t = true) :
    (dat0 V c).flushed 2 t = ((cfg0.win 2).blk t).view.read (Elt Ideal) (xa V c) := by
  have h1 : t.val % 4 = 3 := (flush0_2 t).mp hf
  show (cfg0.win 2).cut (grid0.coords t) ((dat0 V c).after 2 t) = _
  rw [after0_2, outsAt0_fst V c t h1]
  funext y
  rw [View.read_apply]
  obtain ⟨-, -, -, -, e4, e5⟩ := idx0 t
  exact acc0_last V c t h1 y (((cfg0.win 2).blk t).view.emb y) (by show win0_2.index t (0 : Fin 2) * 1024 + 1 * (y 0).val = _; rw [e4]; omega)
    (by show win0_2.index t (1 : Fin 2) * 64 + 1 * (y 1).val = _; rw [e5]; omega)

theorem mem_blk0 (t : Fin cfg0.N) (i : S8192x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v1).slice (win0_2.rect t)).set ↔ _
  rw [View.set_slice_whole, Rect.mem_set_unit]
  exact Iff.rfl

/-- THE RESULT OF REGION 0: the [8192, 64] array ends holding the down projection. -/
theorem final0 : (dat0 V c).arrAt 2 cfg0.N = xa V c :=
  (dat0 V c).arrAt_eq_of_cover 2 (xa V c) (fun t hf => flushed0_eq V c t hf) fun i => by
    have hi0 : (i 0).val < 8192 := (i 0).isLt
    have hi1 : (i 1).val < 64 := (i 1).isLt
    have hN : cfg0.N = 32 := N_0
    refine ⟨⟨(i 0).val / 1024 * 4 + 3, by omega⟩, (flush0_2 _).mpr (by show ((i 0).val / 1024 * 4 + 3) % 4 = 3; omega), ?_⟩
    rw [mem_blk0]
    obtain ⟨-, -, -, -, e4, e5⟩ := idx0 ⟨(i 0).val / 1024 * 4 + 3, by omega⟩
    intro a
    match a with
    | ⟨0, _⟩ => show win0_2.index _ (0 : Fin 2) * 1024 ≤ (i 0).val ∧ (i 0).val < win0_2.index _ (0 : Fin 2) * 1024 + 1024; rw [e4]; show ((i 0).val / 1024 * 4 + 3) / 4 * 1024 ≤ _ ∧ _ < ((i 0).val / 1024 * 4 + 3) / 4 * 1024 + 1024; omega
    | ⟨1, _⟩ => show win0_2.index _ (1 : Fin 2) * 64 ≤ (i 1).val ∧ (i 1).val < win0_2.index _ (1 : Fin 2) * 64 + 64; rw [e5]; omega

end Region0

end Cert.KernelIdeal.Fr

end
-- ==== Proof.KI.Value1a.lean ====
/-
  What region 1's three kinds of point leave, as values. At a first-block point the accumulator ends at the block's
  product added to the zero splat; at a later point at the block's product added to what it held; at a last-block
  point the output's buffer receives the accumulator's new contents plus twice the product of the down projection's
  block with the second factor's block. Each is the payload of the body's one covering store, its loads reading
  whole buffers.
-/
import proofs.«131997_j22600117911582_1_alg».proof.Proof.KI.Region1
import proofs.«131997_j22600117911582_1_alg».proof.Proof.KI.Value0a
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem sout1_B_eq (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 : Vec F S1024x512 .f32) (x1 : Vec F S1024x512 .i32) (x2 : Vec F S1024x1 .f32) (x3 : Vec F S1024x64 .f32) (x4 : Vec F S1024x64 .f32) (xs0 : Vec F S1024x1024 .f32) :
    sout1_B c i arg3 harg3 arg4 harg4 arg5 harg5 arg6 harg6 arg7 harg7 arg8 harg8 arg9 harg9 hc0 hc1 x0 x1 x2 x3 x4 xs0 = k1_pay2 x0 x1 x2 xs0 := by
  unfold sout1_B
  rw [View.read_writes_eq_canon _ _ _ (scover1_B c i arg3 harg3 arg4 harg4 arg5 harg5 arg6 harg6 arg7 harg7 arg8 harg8 arg9 harg9 hc0 hc1 x0 x1 x2 x3 x4 xs0)]
  unfold kernelRun1_B
  dsimp only
  rw [View.canon_unit_zero hz2]
  simp only [View.readAt_eq_ld, harg3.read_unread, harg4.read_unread, harg5.read_unread, harg9.read_unread, View.ld_unit_zero (S := S1024x512) hz2, View.ld_unit_zero (S := S1024x1) hz2, View.ld_unit_zero (S := S1024x64) hz2, View.ld_unit_zero (S := S1024x1024) hz2]

theorem sout1_A_eq (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 : Vec F S1024x512 .f32) (x1 : Vec F S1024x512 .i32) (x2 : Vec F S1024x1 .f32) (x3 : Vec F S1024x64 .f32) (x4 : Vec F S1024x64 .f32) :
    sout1_A c i arg3 harg3 arg4 harg4 arg5 harg5 arg6 harg6 arg7 harg7 arg8 harg8 arg9 harg9 hc0 hc1 x0 x1 x2 x3 x4 = k1_pay2 x0 x1 x2 (k1_pay1 (F := F)) := by
  unfold sout1_A
  rw [View.read_writes_eq_canon _ _ _ (scover1_A c i arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S1024x1024) hz2, View.readCov_unit_zero (S := S1024x1024) _ hz2]
  simp only [View.readAt_eq_ld, harg3.read_unread, harg4.read_unread, harg5.read_unread, harg9.read_unread, View.ld_unit_zero (S := S1024x512) hz2, View.ld_unit_zero (S := S1024x1) hz2, View.ld_unit_zero (S := S1024x64) hz2, View.ld_unit_zero (S := S1024x1024) hz2]

theorem sout1_C_eq (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x512 .f32) (x1 : Vec F S1024x512 .i32) (x2 : Vec F S1024x1 .f32) (x3 : Vec F S1024x64 .f32) (x4 : Vec F S1024x64 .f32) (xs0 : Vec F S1024x1024 .f32) :
    sout1_C c i arg3 harg3 arg4 harg4 arg5 harg5 arg6 harg6 arg7 harg7 arg8 harg8 arg9 harg9 hc0 hc1 x0 x1 x2 x3 x4 xs0 = k1_pay2 x0 x1 x2 xs0 := by
  unfold sout1_C
  rw [View.read_writes_eq_canon _ _ _ (scover1_C c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero hz2]
  simp only [View.readAt_eq_ld, harg3.read_unread, harg4.read_unread, harg5.read_unread, harg9.read_unread, View.ld_unit_zero (S := S1024x512) hz2, View.ld_unit_zero (S := S1024x1) hz2, View.ld_unit_zero (S := S1024x64) hz2, View.ld_unit_zero (S := S1024x1024) hz2]

theorem out1_C_eq (c : Dev nD) (i : grid1.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x512 .f32) (x1 : Vec F S1024x512 .i32) (x2 : Vec F S1024x1 .f32) (x3 : Vec F S1024x64 .f32) (x4 : Vec F S1024x64 .f32) (xs0 : Vec F S1024x1024 .f32) :
    out1_C c i arg3 harg3 arg4 harg4 arg5 harg5 arg6 harg6 arg7 harg7 arg8 harg8 arg9 harg9 hc0 hc1 x0 x1 x2 x3 x4 xs0 = k1_pay3 x4 x3 (k1_pay2 x0 x1 x2 xs0) := by
  unfold out1_C
  rw [View.read_writes_eq_canon _ _ _ (cover1_C c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero hz2, View.readCov_unit_zero (S := S1024x1024) _ hz2]
  simp only [View.readAt_eq_ld, harg3.read_unread, harg4.read_unread, harg5.read_unread, harg6.read_unread, harg7.read_unread, harg9.read_unread, View.ld_unit_zero (S := S1024x512) hz2, View.ld_unit_zero (S := S1024x1) hz2, View.ld_unit_zero (S := S1024x64) hz2, View.ld_unit_zero (S := S1024x1024) hz2]

end Cert.KernelIdeal.Fr

end
-- ==== Proof.KI.Value1b.lean ====
/-
  Region 1's accumulation in closed form. After the body at point n the accumulator holds the block product of that
  point added to: the zero splat when n is a first-block point, what the point before left otherwise. The pipeline's
  point-by-point data is this recursion (by induction on the point), and at a last-block point the output's buffer
  holds the accumulator plus twice the product of the down projection's block with the second factor's block.
-/
import proofs.«131997_j22600117911582_1_alg».proof.Proof.KI.Value1a

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The accumulator after point n. -/
def acc1 (c : Dev nD) : (n : ℕ) → n < cfg1.N → Vec F S1024x1024 .f32
  | 0, h => k1_pay2 (iblk1 V c 0 ⟨0, h⟩) (iblk1 V c 1 ⟨0, h⟩) (iblk1 V c 2 ⟨0, h⟩) (k1_pay1 (F := F))
  | n + 1, h => k1_pay2 (iblk1 V c 0 ⟨n + 1, h⟩) (iblk1 V c 1 ⟨n + 1, h⟩) (iblk1 V c 2 ⟨n + 1, h⟩) (if (n + 1) % 8 = 0 then k1_pay1 (F := F) else acc1 c n (Nat.lt_of_succ_lt h))

theorem acc1_succ (c : Dev nD) (n : ℕ) (h : n + 1 < cfg1.N) :
    acc1 V c (n + 1) h = k1_pay2 (iblk1 V c 0 ⟨n + 1, h⟩) (iblk1 V c 1 ⟨n + 1, h⟩) (iblk1 V c 2 ⟨n + 1, h⟩) (if (n + 1) % 8 = 0 then k1_pay1 (F := F) else acc1 V c n (Nat.lt_of_succ_lt h)) := rfl

theorem acc1_zero (c : Dev nD) (h : 0 < cfg1.N) :
    acc1 V c 0 h = k1_pay2 (iblk1 V c 0 ⟨0, h⟩) (iblk1 V c 1 ⟨0, h⟩) (iblk1 V c 2 ⟨0, h⟩) (k1_pay1 (F := F)) := rfl

theorem outsAt1_snd (c : Dev nD) : ∀ (n : ℕ) (h : n < cfg1.N), (outsAt1 V c n h).2 = acc1 V c n h := by
  intro n
  induction n with
  | zero =>
    intro h
    rw [acc1_zero, outsAt1_A V c ⟨0, h⟩ (show (0 : ℕ) % 8 = 0 from rfl) (show ¬ (0 : ℕ) % 8 = 7 by decide)]
    dsimp only
    rw [sout1_A_eq]
  | succ n ih =>
    intro h
    rw [acc1_succ]
    by_cases h1 : (n + 1) % 8 = 7
    · have h0 : ¬ (n + 1) % 8 = 0 := by omega
      rw [outsAt1_C V c ⟨n + 1, h⟩ h0 h1, if_neg h0]
      dsimp only
      rw [sout1_C_eq]
      exact congrArg (k1_pay2 (iblk1 V c 0 ⟨n + 1, h⟩) (iblk1 V c 1 ⟨n + 1, h⟩) (iblk1 V c 2 ⟨n + 1, h⟩)) (ih _)
    · by_cases h0 : (n + 1) % 8 = 0
      · rw [outsAt1_A V c ⟨n + 1, h⟩ h0 h1, if_pos h0]
        dsimp only
        rw [sout1_A_eq]
      · rw [outsAt1_B V c ⟨n + 1, h⟩ h0 h1, if_neg h0]
        dsimp only
        rw [sout1_B_eq]
        exact congrArg (k1_pay2 (iblk1 V c 0 ⟨n + 1, h⟩) (iblk1 V c 1 ⟨n + 1, h⟩) (iblk1 V c 2 ⟨n + 1, h⟩)) (ih _)

/-- At a last-block point the output's buffer holds the accumulator plus twice the low-rank block's product. -/
theorem outsAt1_fst (c : Dev nD) (t : Fin cfg1.N) (h1 : t.val % 8 = 7) :
    (outsAt1 V c t.val t.isLt).1 = k1_pay3 (iblk1 V c 4 t) (iblk1 V c 3 t) (acc1 V c t.val t.isLt) := by
  have h0 : ¬ t.val % 8 = 0 := by omega
  rw [← outsAt1_snd V c t.val t.isLt, outsAt1_C V c t h0 h1]
  dsimp only
  rw [out1_C_eq, sout1_C_eq]

end Region1

end Cert.KernelIdeal.Fr

end
-- ==== Proof.KI.Value1c.lean ====
/-
  Region 1's result as a function of the arrays it finds. With X : [8192, 4096] the reshaped activations,
  Q : [4096, 4096] the signed codes, S : [4096, 1] their row scales, B : [4096, 64] the second factor and
  XA : [8192, 64] the down projection, the accumulator after point t (row block M = t / 32, output-column block
  N = t / 8 mod 4, contraction block k = t mod 8) holds at (p, q) the partial sum over the first (k + 1)·512 indices i
  of X[M·1024 + p, i] · (Q[N·1024 + q, i] · S[N·1024 + q, 0]): at k = 0 it is zero plus the first block, afterwards
  the previous partial sum plus the next block. At k = 7 that is the whole sum over the 4096 indices, and the
  write-back puts it, plus twice Σ_r XA[M·1024 + p, r] · B[N·1024 + q, r], in the [8192, 4096] result; the thirty-two
  write-backs cover it.
-/
import proofs.«131997_j22600117911582_1_alg».proof.Proof.KI.Value1b
import proofs.«131997_j22600117911582_1_alg».proof.Proof.KI.Payload
import proofs.«131997_j22600117911582_1_alg».proof.Proof.LibBlockSum
import proofs.«131997_j22600117911582_1_alg».proof.Proof.Spec

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Val Cert.BlockSum
open scoped BigOperators

section Region1
variable (V : (c : Dev nD) → (b : Ref sig .tc) → Buf (Elt Ideal) ((c : Thread nD τ).loc b)) (c : Dev nD)

/-- The windows' block indices over the grid: row block t / 32, output-column block t / 8 mod 4, contraction block t mod 8. -/
theorem idx1 : ∀ t : Fin cfg1.N, win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = t.val / 8 % 4 ∧ win1_2.index t (1 : Fin 2) = 0
    ∧ win1_3.index t (0 : Fin 2) = t.val / 8 % 4 ∧ win1_3.index t (1 : Fin 2) = 0
    ∧ win1_4.index t (0 : Fin 2) = t.val / 32 ∧ win1_4.index t (1 : Fin 2) = 0
    ∧ win1_5.index t (0 : Fin 2) = t.val / 32 ∧ win1_5.index t (1 : Fin 2) = t.val / 8 % 4 :=
  (by decide +kernel : ∀ t : Fin grid1.N, _)

/-- The reshaped activations, the signed codes, their row scales, the second factor and the down projection, as the
    region finds them. -/
def X1 : S8192x4096.Idx → EReal := V c main_v0
def Q1 : S4096x4096.Idx → BitVec 32 := V c main_arg1
def S1 : S4096x1.Idx → EReal := V c main_arg2
def B1 : S4096x64.Idx → EReal := V c main_arg4
def XA1 : S8192x64.Idx → EReal := V c main_v1

/-- An entry of the activations' block at point t is the array's entry at row (t/32)·1024 + p, column (t mod 8)·512 + j. -/
theorem iblk1_0_apply (t : Fin cfg1.N) (x : Vec Ideal S1024x512 .f32) (hx : x = iblk1 V c 0 t) (p : Fin 1024) (j : Fin 512) (I : Fin 8192) (J : Fin 4096)
    (hI : I.val = t.val / 32 * 1024 + p.val) (hJ : J.val = t.val % 8 * 512 + j.val) :
    x (ix2 p j) = X1 V c (ix2 I J) := by
  subst hx
  unfold iblk1
  rw [View.read_apply]
  show X1 V c _ = X1 V c _
  refine congrArg (X1 V c) ?_
  funext a; apply Fin.ext
  obtain ⟨e00, e01, -, -, -, -, -, -, -, -, -, -⟩ := idx1 t
  match a with
  | ⟨0, _⟩ => show win1_0.index t (0 : Fin 2) * 1024 + 1 * p.val = I.val; rw [e00, hI]; omega
  | ⟨1, _⟩ => show win1_0.index t (1 : Fin 2) * 512 + 1 * j.val = J.val; rw [e01, hJ]; omega

/-- An entry of the codes' block at point t is the array's entry at row (t/8 mod 4)·1024 + n, column (t mod 8)·512 + j. -/
theorem iblk1_1_apply (t : Fin cfg1.N) (q : Vec Ideal S1024x512 .i32) (hq : q = iblk1 V c 1 t) (n : Fin 1024) (j : Fin 512) (O : Fin 4096) (J : Fin 4096)
    (hO : O.val = t.val / 8 % 4 * 1024 + n.val) (hJ : J.val = t.val % 8 * 512 + j.val) :
    q (ix2 n j) = Q1 V c (ix2 O J) := by
  subst hq
  unfold iblk1
  rw [View.read_apply]
  show Q1 V c _ = Q1 V c _
  refine congrArg (Q1 V c) ?_
  funext a; apply Fin.ext
  obtain ⟨-, -, e10, e11, -, -, -, -, -, -, -, -⟩ := idx1 t
  match a with
  | ⟨0, _⟩ => show win1_1.index t (0 : Fin 2) * 1024 + 1 * n.val = O.val; rw [e10, hO]; omega
  | ⟨1, _⟩ => show win1_1.index t (1 : Fin 2) * 512 + 1 * j.val = J.val; rw [e11, hJ]; omega

/-- The one column of the scales' block at point t is the array's at row (t/8 mod 4)·1024 + n. -/
theorem iblk1_2_apply (t : Fin cfg1.N) (s : Vec Ideal S1024x1 .f32) (hs : s = iblk1 V c 2 t) (n : Fin 1024) (O : Fin 4096)
    (hO : O.val = t.val / 8 % 4 * 1024 + n.val) :
    s (ix2 n (0 : Fin 1)) = S1 V c (ix2 O (0 : Fin 1)) := by
  subst hs
  unfold iblk1
  rw [View.read_apply]
  show S1 V c _ = S1 V c _
  refine congrArg (S1 V c) ?_
  funext a; apply Fin.ext
  obtain ⟨-, -, -, -, e20, e21, -, -, -, -, -, -⟩ := idx1 t
  match a with
  | ⟨0, _⟩ => show win1_2.index t (0 : Fin 2) * 1024 + 1 * n.val = O.val; rw [e20, hO]; omega
  | ⟨1, _⟩ => show win1_2.index t (1 : Fin 2) * 1 + 1 * 0 = 0; omega

/-- An entry of the second factor's block at point t is the array's entry at row (t/8 mod 4)·1024 + n, column r. -/
theorem iblk1_3_apply (t : Fin cfg1.N) (b : Vec Ideal S1024x64 .f32) (hb : b = iblk1 V c 3 t) (n : Fin 1024) (r : Fin 64) (O : Fin 4096)
    (hO : O.val = t.val / 8 % 4 * 1024 + n.val) :
    b (ix2 n r) = B1 V c (ix2 O r) := by
  subst hb
  unfold iblk1
  rw [View.read_apply]
  show B1 V c _ = B1 V c _
  refine congrArg (B1 V c) ?_
  funext a; apply Fin.ext
  obtain ⟨-, -, -, -, -, -, e30, e31, -, -, -, -⟩ := idx1 t
  match a with
  | ⟨0, _⟩ => show win1_3.index t (0 : Fin 2) * 1024 + 1 * n.val = O.val; rw [e30, hO]; omega
  | ⟨1, _⟩ => show win1_3.index t (1 : Fin 2) * 64 + 1 * r.val = r.val; rw [e31]; omega

/-- An entry of the down projection's block at point t is the array's entry at row (t/32)·1024 + p, column r. -/
theorem iblk1_4_apply (t : Fin cfg1.N) (xa : Vec Ideal S1024x64 .f32) (hxa : xa = iblk1 V c 4 t) (p : Fin 1024) (r : Fin 64) (I : Fin 8192)
    (hI : I.val = t.val / 32 * 1024 + p.val) :
    xa (ix2 p r) = XA1 V c (ix2 I r) := by
  subst hxa
  unfold iblk1
  rw [View.read_apply]
  show XA1 V c _ = XA1 V c _
  refine congrArg (XA1 V c) ?_
  funext a; apply Fin.ext
  obtain ⟨-, -, -, -, -, -, -, -, e40, e41, -, -⟩ := idx1 t
  match a with
  | ⟨0, _⟩ => show win1_4.index t (0 : Fin 2) * 1024 + 1 * p.val = I.val; rw [e40, hI]; omega
  | ⟨1, _⟩ => show win1_4.index t (1 : Fin 2) * 64 + 1 * r.val = r.val; rw [e41]; omega

/-- The products summed for the entry (I, O) of the base product: the activation times the dequantized weight. -/
def term1 (I : Fin 8192) (O : Fin 4096) : Fin 4096 → EReal :=
  fun i => X1 V c (ix2 I i) * ((((Q1 V c (ix2 O i)).toInt : ℝ) : EReal) * S1 V c (ix2 O (0 : Fin 1)))

/-- Row p of row block M, and output column q of output-column block N. -/
def row1 (M : ℕ) (p : Fin 1024) : Fin 8192 := ⟨M % 8 * 1024 + p.val, by have := p.isLt; omega⟩
def col1 (N : ℕ) (q : Fin 1024) : Fin 4096 := ⟨N % 4 * 1024 + q.val, by have := q.isLt; omega⟩

/-- The block's product at point t, entry (p, n): the k-th block of 512 terms. -/
theorem block1 (t : Fin cfg1.N) (x : Vec Ideal S1024x512 .f32) (hx : x = iblk1 V c 0 t) (q : Vec Ideal S1024x512 .i32) (hq : q = iblk1 V c 1 t)
    (s : Vec Ideal S1024x1 .f32) (hs : s = iblk1 V c 2 t)
    (p n : Fin 1024) (M : ℕ) (hM : M % 8 = t.val / 32) (N : ℕ) (hN : N % 4 = t.val / 8 % 4) (k : ℕ) (hk : k = t.val % 8) (hb : (k + 1) * 512 ≤ 4096) :
    ∑ j : Fin 512, x (ix2 p j) * ((((q (ix2 n j)).toInt : ℝ) : EReal) * s (ix2 n (0 : Fin 1)))
      = ∑ j : Fin 512, term1 V c (row1 M p) (col1 N n) ⟨k * 512 + j.val, block_lt hb j⟩ := by
  refine Finset.sum_congr rfl fun j _ => ?_
  rw [iblk1_0_apply V c t x hx p j (row1 M p) ⟨k * 512 + j.val, block_lt hb j⟩ (by show M % 8 * 1024 + p.val = _; rw [hM]) (by show k * 512 + j.val = _; rw [hk]),
    iblk1_1_apply V c t q hq n j (col1 N n) ⟨k * 512 + j.val, block_lt hb j⟩ (by show N % 4 * 1024 + n.val = _; rw [hN]) (by show k * 512 + j.val = _; rw [hk]),
    iblk1_2_apply V c t s hs n (col1 N n) (by show N % 4 * 1024 + n.val = _; rw [hN])]
  rfl

/-- The low-rank block's product at point t, entry (p, n). -/
theorem lora1 (t : Fin cfg1.N) (xa : Vec Ideal S1024x64 .f32) (hxa : xa = iblk1 V c 4 t) (b : Vec Ideal S1024x64 .f32) (hb : b = iblk1 V c 3 t)
    (p n : Fin 1024) (M : ℕ) (hM : M % 8 = t.val / 32) (N : ℕ) (hN : N % 4 = t.val / 8 % 4) :
    ∑ r : Fin 64, xa (ix2 p r) * b (ix2 n r)
      = ∑ r : Fin 64, XA1 V c (ix2 (row1 M p) r) * B1 V c (ix2 (col1 N n) r) := by
  refine Finset.sum_congr rfl fun r _ => ?_
  rw [iblk1_4_apply V c t xa hxa p r (row1 M p) (by show M % 8 * 1024 + p.val = _; rw [hM]),
    iblk1_3_apply V c t b hb n r (col1 N n) (by show N % 4 * 1024 + n.val = _; rw [hN])]

/-- A partial sum up to the end of block k of 512 is the partial sum up to its start plus the block. -/
theorem upto_step1 (f : Fin 4096 → EReal) (k K : ℕ) (hK : K = (k + 1) * 512) (hb : (k + 1) * 512 ≤ 4096) :
    upto f K = upto f (k * 512) + ∑ j : Fin 512, f ⟨k * 512 + j.val, block_lt hb j⟩ := by
  subst hK; exact upto_add_block f k 512 hb
/-- The partial sum up to the end of the first block of 512 is zero plus the block. -/
theorem upto_first1 (f : Fin 4096 → EReal) (K : ℕ) (hK : K = (0 + 1) * 512) (hb : (0 + 1) * 512 ≤ 4096) :
    upto f K = 0 + ∑ j : Fin 512, f ⟨0 * 512 + j.val, block_lt hb j⟩ := by
  have hz : upto f (0 * 512) = 0 := by rw [Nat.zero_mul, upto_zero]
  rw [upto_step1 f 0 K hK hb, hz]

/-- THE ACCUMULATOR IS A PARTIAL SUM: after point n, at (p, q), the sum of the first (n mod 8 + 1)·512 terms. -/
theorem acc1_apply : ∀ (n : ℕ) (h : n < cfg1.N) (p q : Fin 1024),
    acc1 V c n h (ix2 p q) = upto (term1 V c (row1 (n / 32) p) (col1 (n / 8 % 4) q)) ((n % 8 + 1) * 512) := by
  intro n
  induction n with
  | zero =>
    intro h p q
    show k1_pay2 (F := Ideal) _ _ _ _ (ix2 p q) = _
    rw [pay1_acc, pay1_reset, block1 V c ⟨0, h⟩ _ rfl _ rfl _ rfl p q (0 / 32) (show (0 : ℕ) / 32 % 8 = 0 / 32 from rfl) (0 / 8 % 4) (show (0 : ℕ) / 8 % 4 % 4 = 0 / 8 % 4 from rfl) 0 (show (0 : ℕ) = 0 % 8 from rfl) (by norm_num)]
    exact (upto_first1 _ _ (by norm_num) (by norm_num)).symm
  | succ n ih =>
    intro h p q
    have hN : n + 1 < 256 := lt_of_lt_of_eq h (show cfg1.N = 256 from N_1)
    rw [acc1_succ]
    by_cases h0 : (n + 1) % 8 = 0
    · rw [if_pos h0, pay1_acc, pay1_reset, block1 V c ⟨n + 1, h⟩ _ rfl _ rfl _ rfl p q ((n + 1) / 32) (by show (n + 1) / 32 % 8 = (n + 1) / 32; omega) ((n + 1) / 8 % 4) (by show (n + 1) / 8 % 4 % 4 = (n + 1) / 8 % 4; omega) 0 (by show 0 = (n + 1) % 8; omega) (by norm_num)]
      exact (upto_first1 _ _ (by rw [h0]) (by norm_num)).symm
    · rw [if_neg h0, pay1_acc, ih, block1 V c ⟨n + 1, h⟩ _ rfl _ rfl _ rfl p q (n / 32) (by show n / 32 % 8 = (n + 1) / 32; omega) (n / 8 % 4) (by show n / 8 % 4 % 4 = (n + 1) / 8 % 4; omega) (n % 8 + 1) (by show n % 8 + 1 = (n + 1) % 8; omega) (by omega)]
      rw [show (n + 1) / 32 = n / 32 from by omega, show (n + 1) / 8 % 4 = n / 8 % 4 from by omega]
      exact (upto_step1 _ (n % 8 + 1) _ (by congr 1; omega) (by omega)).symm

/-- One entry of the result: the base product plus twice the low-rank term. -/
def out2At (I : Fin 8192) (O : Fin 4096) : EReal :=
  (∑ i : Fin 4096, term1 V c I O i) + Cert.Spec.two * ∑ r : Fin 64, XA1 V c (ix2 I r) * B1 V c (ix2 O r)
/-- The result, as the [8192, 4096] array region 1 leaves. -/
def out2 : S8192x4096.Idx → EReal := fun i => out2At V c (i 0) (i 1)

/-- At a last-block point the output's store holds the result's entries of its block. -/
theorem out1_last (t : Fin cfg1.N) (h1 : t.val % 8 = 7) (y : S1024x1024.Idx) (I : S8192x4096.Idx)
    (hI0 : (I 0).val = t.val / 32 * 1024 + (y 0).val) (hI1 : (I 1).val = t.val / 8 % 4 * 1024 + (y 1).val) :
    k1_pay3 (F := Ideal) (iblk1 V c 4 t) (iblk1 V c 3 t) (acc1 V c t.val t.isLt) y = out2 V c I := by
  have hN : t.val < 256 := lt_of_lt_of_eq t.isLt (show cfg1.N = 256 from N_1)
  obtain ⟨p, q, rfl⟩ : ∃ (p : Fin 1024) (q : Fin 1024), y = ix2 p q := ⟨y 0, y 1, eq_ix2 y⟩
  rw [pay1_out, acc1_apply, upto_full _ _ (by rw [h1]),
    lora1 V c t _ rfl _ rfl p q (t.val / 32) (by omega) (t.val / 8 % 4) (by omega)]
  show out2At V c _ _ = out2At V c (I 0) (I 1)
  have e0 : row1 (t.val / 32) p = I 0 := Fin.ext (by show t.val / 32 % 8 * 1024 + p.val = (I 0).val; rw [hI0]; show _ = t.val / 32 * 1024 + p.val; omega)
  have e1 : col1 (t.val / 8 % 4) q = I 1 := Fin.ext (by show t.val / 8 % 4 % 4 * 1024 + q.val = (I 1).val; rw [hI1]; show _ = t.val / 8 % 4 * 1024 + q.val; omega)
  rw [e0, e1]

/-- What a last-block point writes back is its block of the result. -/
theorem flushed1_eq (t : Fin cfg1.N) (hf : (cfg1.win 5).flush t = true) :
    (dat1 V c).flushed 5 t = ((cfg1.win 5).blk t).view.read (Elt Ideal) (out2 V c) := by
  have h1 : t.val % 8 = 7 := (flush1_5 t).mp hf
  show (cfg1.win 5).cut (grid1.coords t) ((dat1 V c).after 5 t) = _
  rw [after1_5, outsAt1_fst V c t h1]
  funext y
  rw [View.read_apply]
  obtain ⟨-, -, -, -, -, -, -, -, -, -, e50, e51⟩ := idx1 t
  exact out1_last V c t h1 y (((cfg1.win 5).blk t).view.emb y) (by show win1_5.index t (0 : Fin 2) * 1024 + 1 * (y 0).val = _; rw [e50]; omega)
    (by show win1_5.index t (1 : Fin 2) * 1024 + 1 * (y 1).val = _; rw [e51]; omega)

theorem mem_blk1 (t : Fin cfg1.N) (i : S8192x4096.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v2).slice (win1_5.rect t)).set ↔ _
  rw [View.set_slice_whole, Rect.mem_set_unit]
  exact Iff.rfl

/-- THE RESULT OF REGION 1: the [8192, 4096] array ends holding the base product plus twice the low-rank term. -/
theorem final1 : (dat1 V c).arrAt 5 cfg1.N = out2 V c :=
  (dat1 V c).arrAt_eq_of_cover 5 (out2 V c) (fun t hf => flushed1_eq V c t hf) fun i => by
    have hi0 : (i 0).val < 8192 := (i 0).isLt
    have hi1 : (i 1).val < 4096 := (i 1).isLt
    have hN : cfg1.N = 256 := N_1
    refine ⟨⟨((i 0).val / 1024 * 4 + (i 1).val / 1024) * 8 + 7, by omega⟩, (flush1_5 _).mpr (by show (((i 0).val / 1024 * 4 + (i 1).val / 1024) * 8 + 7) % 8 = 7; omega), ?_⟩
    rw [mem_blk1]
    obtain ⟨-, -, -, -, -, -, -, -, -, -, e50, e51⟩ := idx1 ⟨((i 0).val / 1024 * 4 + (i 1).val / 1024) * 8 + 7, by omega⟩
    intro a
    match a with
    | ⟨0, _⟩ => show win1_5.index _ (0 : Fin 2) * 1024 ≤ (i 0).val ∧ (i 0).val < win1_5.index _ (0 : Fin 2) * 1024 + 1024; rw [e50]; show (((i 0).val / 1024 * 4 + (i 1).val / 1024) * 8 + 7) / 32 * 1024 ≤ _ ∧ _ < (((i 0).val / 1024 * 4 + (i 1).val / 1024) * 8 + 7) / 32 * 1024 + 1024; omega
    | ⟨1, _⟩ => show win1_5.index _ (1 : Fin 2) * 1024 ≤ (i 1).val ∧ (i 1).val < win1_5.index _ (1 : Fin 2) * 1024 + 1024; rw [e51]; show (((i 0).val / 1024 * 4 + (i 1).val / 1024) * 8 + 7) / 8 % 4 * 1024 ≤ _ ∧ _ < (((i 0).val / 1024 * 4 + (i 1).val / 1024) * 8 + 7) / 8 % 4 * 1024 + 1024; omega

end Region1

end Cert.KernelIdeal.Fr

end
-- ==== Proof.KI.Reshape.lean ====
/-
  The program's two host reshapes READ AT AN INDEX. The activations [4, 2048, 4096] are flattened to rows
  [8192, 4096] before the kernels and the result is unflattened after them: row I = p · 2048 + t of the flat array is
  row (p, t) of the other, column by column. And what each reshape leaves in its result buffer: the operand's contents
  cast to the result's shape.
-/
import proofs.«131997_j22600117911582_1_alg».proof.Proof.Gen.KernelIdeal.Skeleton
import proofs.«131997_j22600117911582_1_alg».proof.Proof.Gen.KernelIdeal.Launch
import proofs.«131997_j22600117911582_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Val

open Idealize.ShloMosaic Idealize.ShloMosaic.ValueIdx Idealize.ShloMosaic.TcCoe Cert.KernelIdeal Cert.KernelIdeal.Gen

/-! ## The two reshapes at an index -/

/-- The flattened activations read, at (I, i) with I = p · 2048 + t, the activations at (p, t, i). -/
theorem reshape_in {α : Type} (x : S4x2048x4096.Idx → α) (h : S4x2048x4096.ShapeCasts S8192x4096)
    (I : Fin 8192) (i : Fin 4096) (p : Fin 4) (t : Fin 2048) (hI : I.val = p.val * 2048 + t.val) :
    shapeCast S8192x4096 x h (ix2 I i) = x (ix3 p t i) :=
  shapeCast_apply x h _ _ (by
    rw [Shape.rowMajor_val_three, Shape.rowMajor_val_two]
    show (p.val * 2048 + t.val) * 4096 + i.val = I.val * 4096 + i.val
    rw [hI])

/-- The unflattened result reads, at (p, t, o), the flat result at (I, o) with I = p · 2048 + t. -/
theorem reshape_out {α : Type} (y : S8192x4096.Idx → α) (h : S8192x4096.ShapeCasts S4x2048x4096)
    (p : Fin 4) (t : Fin 2048) (o : Fin 4096) (I : Fin 8192) (hI : I.val = p.val * 2048 + t.val) :
    shapeCast S4x2048x4096 y h (ix3 p t o) = y (ix2 I o) :=
  shapeCast_apply y h _ _ (by
    rw [Shape.rowMajor_val_three, Shape.rowMajor_val_two]
    show I.val * 4096 + o.val = (p.val * 2048 + t.val) * 4096 + o.val
    rw [hI])

/-! ## What each reshape leaves in its result buffer -/

variable {F : FTy → Type} [FloatOps F]

/-- After the first reshape the flat buffer holds the activations cast to [8192, 4096]. -/
theorem after_reshape0 (W : Valuation τ sig (Elt F)) :
    (StableHlo.after (hostOps0 (F := F)) W (Proc.devRef .tc main_v0) : S8192x4096.Idx → Elt F .f32)
      = shapeCast S8192x4096 (W (Proc.devRef .tc main_arg0)) Facts₀.shapeCasts_S4x2048x4096_S8192x4096 := by
  dsimp only [hostOps0]
  after_results
  rfl

/-- After the second reshape the result buffer holds the flat result cast to [4, 2048, 4096]. -/
theorem after_reshape2 (W : Valuation τ sig (Elt F)) :
    (StableHlo.after (hostOps2 (F := F)) W (Proc.devRef .tc main_v3) : S4x2048x4096.Idx → Elt F .f32)
      = shapeCast S4x2048x4096 (W (Proc.devRef .tc main_v2)) Facts₀.shapeCasts_S8192x4096_S4x2048x4096 := by
  dsimp only [hostOps2]
  after_results
  rfl

end Cert.KernelIdeal.Val

end
-- ==== Proof.KI.Bridge.lean ====
/-
  The kernel program's result is the specification. Region 0 finds the activations reshaped to [8192, 4096] and the
  first factor as launched, and leaves the down projection in the [8192, 64] buffer; region 1 finds that buffer, the
  same reshaped activations, and the codes, scales and second factor as launched, and leaves in the [8192, 4096]
  buffer, at (I, o), the base product's whole sum plus twice the low-rank sum; the last reshape reads row
  I = p·2048 + t as (p, t). Entry by entry that is the specification's value: the same sums of the same products.
-/
import proofs.«131997_j22600117911582_1_alg».proof.Proof.KI.Assemble
import proofs.«131997_j22600117911582_1_alg».proof.Proof.KI.Value0c
import proofs.«131997_j22600117911582_1_alg».proof.Proof.KI.Value1c
import proofs.«131997_j22600117911582_1_alg».proof.Proof.KI.Reshape
import proofs.«131997_j22600117911582_1_alg».proof.Proof.Spec

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Val Cert.BlockSum
open scoped BigOperators

variable (m : (ℓ : Loc nD τ sig) → Buf (Elt Ideal) ℓ) (c : Dev nD)

/-- The five argument arrays as launched. -/
def argX : S4x2048x4096.Idx → EReal := m ((c : Thread nD τ).loc main_arg0)
def argQ : S4096x4096.Idx → BitVec 32 := m ((c : Thread nD τ).loc main_arg1)
def argS : S4096x1.Idx → EReal := m ((c : Thread nD τ).loc main_arg2)
def argA : S64x4096.Idx → EReal := m ((c : Thread nD τ).loc main_arg3)
def argB : S4096x64.Idx → EReal := m ((c : Thread nD τ).loc main_arg4)

/-! ## What region 0 finds -/

theorem X0_eq : X0 (V1 m) c = shapeCast S8192x4096 (argX m c) Facts₀.shapeCasts_S4x2048x4096_S8192x4096 :=
  after_reshape0 (W0 m c)
theorem A0_eq : A0 (V1 m) c = argA m c :=
  StableHlo.after_of_writes_sub hostOps0 _ hostOps0_writes (by decide)

/-! ## What region 1 finds -/

theorem XA1_eq : XA1 (V2 m) c = xa (V1 m) c := (W2_arr m c 2).trans (final0 (V1 m) c)
theorem X1_eq : X1 (V2 m) c = X0 (V1 m) c :=
  (W2_arr m c 0).trans (((dat0 (V1 m) c).arrAt_in 0 rfl _).trans (A_eq0 (V1 m) c 0))
theorem Q1_eq : Q1 (V2 m) c = argQ m c :=
  (W2_of_ne m c main_arg1 (by decide)).trans (StableHlo.after_of_writes_sub hostOps0 _ hostOps0_writes (by decide))
theorem S1_eq : S1 (V2 m) c = argS m c :=
  (W2_of_ne m c main_arg2 (by decide)).trans (StableHlo.after_of_writes_sub hostOps0 _ hostOps0_writes (by decide))
theorem B1_eq : B1 (V2 m) c = argB m c :=
  (W2_of_ne m c main_arg4 (by decide)).trans (StableHlo.after_of_writes_sub hostOps0 _ hostOps0_writes (by decide))

/-! ## The result -/

/-- What region 1 leaves in the [8192, 4096] buffer. -/
theorem W3_v2 : (W3 m c (Proc.devRef .tc main_v2) : S8192x4096.Idx → EReal) = out2 (V2 m) c :=
  (W3_arr m c 5).trans (final1 (V2 m) c)

/-- One entry of region 1's result, in terms of the launched arrays. -/
theorem out2At_eq (p : Fin 4) (t : Fin 2048) (o : Fin 4096) (I : Fin 8192) (hI : I.val = p.val * 2048 + t.val) :
    out2At (V2 m) c I o = Cert.Spec.outAt (argX m c) (argQ m c) (argS m c) (argA m c) (argB m c) p t o := by
  have hx : ∀ i : Fin 4096, X0 (V1 m) c (ix2 I i) = argX m c (ix3 p t i) := fun i => by
    rw [X0_eq]; exact reshape_in _ _ I i p t hI
  unfold out2At term1 Cert.Spec.outAt Cert.Spec.base Cert.Spec.lora Cert.Spec.down Cert.Spec.weight
  rw [X1_eq, Q1_eq, S1_eq, B1_eq, XA1_eq]
  refine congrArg₂ (· + ·) (Finset.sum_congr rfl fun i _ => by rw [hx i]) (congrArg (Cert.Spec.two * ·) (Finset.sum_congr rfl fun r _ => ?_))
  refine congrArg (· * _) ?_
  show xaAt (V1 m) c I r = _
  unfold xaAt term0
  rw [A0_eq]
  exact Finset.sum_congr rfl fun i _ => by rw [hx i]

/-- THE RESULT BUFFER after the run holds the specification's array of the launched arguments. -/
theorem W4_v3 : (W4 m c (Proc.devRef .tc main_v3) : S4x2048x4096.Idx → EReal)
    = Cert.Spec.out (argX m c) (argQ m c) (argS m c) (argA m c) (argB m c) := by
  funext j
  obtain ⟨p, t, o, rfl⟩ : ∃ (p : Fin 4) (t : Fin 2048) (o : Fin 4096), j = ix3 p t o := ⟨j 0, j 1, j 2, eq_ix3 j⟩
  have hlt : p.val * 2048 + t.val < 8192 := by have := p.isLt; have := t.isLt; omega
  rw [Cert.Spec.out_ix3, ← out2At_eq m c p t o ⟨p.val * 2048 + t.val, hlt⟩ rfl]
  show (StableHlo.after hostOps2 (W3 m c) (Proc.devRef .tc main_v3) : S4x2048x4096.Idx → EReal) (ix3 p t o) = _
  rw [after_reshape2 (W3 m c), reshape_out _ _ p t o ⟨p.val * 2048 + t.val, hlt⟩ rfl]
  exact congrFun (W3_v2 m c) _

/-- The run of the idealized kernel program, its result named by the specification. -/
theorem run_spec (ρ : Dev nD → PrngReg) : θ_run defs (onTc (τ := τ) (main (F := Ideal))) ⟨m, fun _ => 0, ρ⟩ (fun r => ∀ c : Dev nD,
      r.2.mem ((c.tc : Thread nD τ).loc main_v3) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1).trans (W4_v3 m c), (h c).2⟩) (run_main m ρ)

end Cert.KernelIdeal.Fr

end
-- ==== Proof.RefValue.lean ====
/-
  The reference, read entry by entry, is the specification.
  The reference computes, in ten host operations, the dequantized weight w[o, i] = q[o, i] · s[o, 0], the base
  product Σ_i x[p, t, i] · w[o, i], the down projection Σ_i x[p, t, i] · a[r, i], the low-rank term
  Σ_r down[p, t, r] · b[o, r], and the result base + 2 · lora.  Each operation read at an index (p, t, o) is the
  corresponding term of the specification, so the whole result array is `Cert.Spec.out` of the five arguments.
-/
import proofs.«131997_j22600117911582_1_alg».proof.Defs
import proofs.«131997_j22600117911582_1_alg».proof.Proof.Gen.ReferenceIdeal.Run
import proofs.«131997_j22600117911582_1_alg».proof.Proof.Gen.ReferenceIdeal.Read
import proofs.«131997_j22600117911582_1_alg».proof.Proof.Gen.Pre_finite_inputs
import proofs.«131997_j22600117911582_1_alg».proof.Proof.Spec

noncomputable section

open scoped BigOperators

namespace Cert.RefValue

open Idealize.ShloMosaic Idealize.ShloMosaic.TcCoe Idealize.SL.Sem Idealize.ShloMosaic.ValueIdx
open Cert.ReferenceIdeal Cert.ReferenceIdeal.Gen Cert.ReferenceIdeal.Read

/-! ## The index maps of the three contractions and of the scale's broadcast, at coordinates -/

/-- The base product reads the activations at (p, t, i). -/
theorem lidx3 (p : Fin 4) (t : Fin 2048) (o i : Fin 4096) : lidx_main_v3 (ix3 p t o) i = ix3 p t i :=
  funext fun a => Fin.ext (by match a with | ⟨0, _⟩ => rfl | ⟨1, _⟩ => rfl | ⟨2, _⟩ => rfl)

/-- The base product reads the weights at (o, i). -/
theorem ridx3 (p : Fin 4) (t : Fin 2048) (o i : Fin 4096) : ridx_main_v3 (ix3 p t o) i = ix2 o i :=
  funext fun a => Fin.ext (by match a with | ⟨0, _⟩ => rfl | ⟨1, _⟩ => rfl)

/-- The scale broadcast along a row reads the scale at (o, 0). -/
theorem idx1 (o i : Fin 4096) : idx_main_v1 (ix2 o i) = ix2 o (0 : Fin 1) :=
  funext fun a => Fin.ext (by match a with | ⟨0, _⟩ => rfl | ⟨1, _⟩ => rfl)

/-- The low-rank term reads the down projection at (p, t, r). -/
theorem lidx5 (p : Fin 4) (t : Fin 2048) (o : Fin 4096) (r : Fin 64) : lidx_main_v5 (ix3 p t o) r = ix3 p t r :=
  funext fun a => Fin.ext (by match a with | ⟨0, _⟩ => rfl | ⟨1, _⟩ => rfl | ⟨2, _⟩ => rfl)

/-- The low-rank term reads the second factor at (o, r). -/
theorem ridx5 (p : Fin 4) (t : Fin 2048) (o : Fin 4096) (r : Fin 64) : ridx_main_v5 (ix3 p t o) r = ix2 o r :=
  funext fun a => Fin.ext (by match a with | ⟨0, _⟩ => rfl | ⟨1, _⟩ => rfl)

/-- The down projection reads the activations at (p, t, i). -/
theorem lidx4 (p : Fin 4) (t : Fin 2048) (r : Fin 64) (i : Fin 4096) : lidx_main_v4 (ix3 p t r) i = ix3 p t i :=
  funext fun a => Fin.ext (by match a with | ⟨0, _⟩ => rfl | ⟨1, _⟩ => rfl | ⟨2, _⟩ => rfl)

/-- The down projection reads the first factor at (r, i). -/
theorem ridx4 (p : Fin 4) (t : Fin 2048) (r : Fin 64) (i : Fin 4096) : ridx_main_v4 (ix3 p t r) i = ix2 r i :=
  funext fun a => Fin.ext (by match a with | ⟨0, _⟩ => rfl | ⟨1, _⟩ => rfl)

/-! ## The stages at coordinates -/

/-- The dequantized weight at (o, i): the signed code times its row's scale. -/
theorem weight_at (q : (⟨S4096x4096, .i32⟩ : BufTy).Contents (Elt Ideal)) (s : (⟨S4096x1, .f32⟩ : BufTy).Contents (Elt Ideal))
    (o i : Fin 4096) : val_main_v2 (F := Ideal) q s (ix2 o i) = Cert.Spec.weight q s o i := by
  rw [val_main_v2_apply, val_main_v0_apply, val_main_v1_apply, idx1]
  rfl

/-- The down projection at (p, t, r). -/
theorem down_at (x : (⟨S4x2048x4096, .f32⟩ : BufTy).Contents (Elt Ideal)) (a : (⟨S64x4096, .f32⟩ : BufTy).Contents (Elt Ideal))
    (p : Fin 4) (t : Fin 2048) (r : Fin 64) : val_main_v4 (F := Ideal) x a (ix3 p t r) = Cert.Spec.down x a p t r := by
  rw [val_main_v4_apply]
  unfold Cert.Spec.down
  refine Finset.sum_congr rfl fun i _ => ?_
  rw [lidx4, ridx4]

/-- The reference's result array is the specification's, entry by entry. -/
theorem result_eq (x : (⟨S4x2048x4096, .f32⟩ : BufTy).Contents (Elt Ideal)) (q : (⟨S4096x4096, .i32⟩ : BufTy).Contents (Elt Ideal))
    (s : (⟨S4096x1, .f32⟩ : BufTy).Contents (Elt Ideal)) (a : (⟨S64x4096, .f32⟩ : BufTy).Contents (Elt Ideal))
    (b : (⟨S4096x64, .f32⟩ : BufTy).Contents (Elt Ideal)) :
    val_main_v8 (F := Ideal) x q s a b = Cert.Spec.out x q s a b := by
  funext j
  obtain ⟨p, t, o, rfl⟩ : ∃ (p : Fin 4) (t : Fin 2048) (o : Fin 4096), j = ix3 p t o := ⟨j 0, j 1, j 2, eq_ix3 j⟩
  rw [Cert.Spec.out_ix3, val_main_v8_apply, val_main_v3_apply, val_main_v7_apply, val_main_v6_apply, val_main_cst_apply,
    val_main_v5_apply]
  unfold Cert.Spec.outAt Cert.Spec.base Cert.Spec.lora Cert.Spec.two
  rw [Ideal.addf_def, Ideal.mulf_def, Ideal.ofBits_def]
  congr 1
  · refine Finset.sum_congr rfl fun i _ => ?_
    rw [lidx3, ridx3, weight_at]
  · congr 1
    refine Finset.sum_congr rfl fun r _ => ?_
    rw [lidx5, ridx5, down_at]

/-! ## The run -/

/-- Every weakly fair execution of the reference ends with the result array at the specification of the
    arguments' launch contents, and the arguments unchanged. -/
theorem run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v8)
        = Cert.Spec.out (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run (Cert.ReferenceIdeal.defs (F := Ideal)) _ _).mono
    (fun _ h c => ⟨(h c).1.trans ((val_main_v8_eq (F := Ideal) _ _ _ _ _).trans (result_eq _ _ _ _ _)), (h c).2⟩)
    (Cert.ReferenceIdeal.Value.run (F := Ideal) m' g')

/-- The reference runs and leaves its arguments unchanged: its run with the result dropped. -/
theorem frame : Cert.frame_ReferenceIdeal := fun m ρ _ =>
  (θ_run (Cert.ReferenceIdeal.defs (F := Ideal)) _ _).mono (fun _ h c => (h c).2) (Cert.ReferenceIdeal.Value.run (F := Ideal) m ρ)

end Cert.RefValue

end
-- ==== Proof.lean ====
/-
  The certificate of the quantized matrix product with a low-rank correction,

      out[p, t, o] = Σ_i x[p, t, i] · (q[o, i] · s[o, 0])  +  2 · Σ_r (Σ_i x[p, t, i] · a[r, i]) · b[o, r],

  computed by two kernel launches: the first accumulates the down projection x·aᵀ over four column blocks of 1024 in a
  carried accumulator and writes each row block out after the last; the second accumulates the base product over
  eight column blocks of 512 and, after the last, adds twice the product of the down projection with bᵀ.
  Frames: each launch is run point by point with its accumulator's contents named between points, and the program
  as four segments (reshape, launch, launch, reshape). Values: each accumulator is a partial sum over the contraction
  axis, so after the last block it is the whole sum; over the extended reals a sum taken block by block from zero is
  the sum, by associativity and commutativity of addition alone, so no finiteness of the inputs is used. The
  reference's value is read off its host operations one at a time. The word-level program's idealization rewrites
  nothing, so the preservation conjunct is trivial.
-/
import proofs.«131997_j22600117911582_1_alg».proof.Defs
import proofs.«131997_j22600117911582_1_alg».proof.Proof.Gen.Kernel
import proofs.«131997_j22600117911582_1_alg».proof.Proof.Gen.KernelIdeal
import proofs.«131997_j22600117911582_1_alg».proof.Proof.Gen.ReferenceIdeal
import proofs.«131997_j22600117911582_1_alg».proof.Proof.Gen.Pre_finite_inputs
import proofs.«131997_j22600117911582_1_alg».proof.Proof.K.Assemble
import proofs.«131997_j22600117911582_1_alg».proof.Proof.KI.Bridge
import proofs.«131997_j22600117911582_1_alg».proof.Proof.RefValue

noncomputable section

namespace Cert.Proof

open Idealize.ShloMosaic Idealize.SL.Sem

theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Fr.run_main (F := Bits) m ρ)

theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Fr.run_main (F := Ideal) m ρ)

/-- Both idealized programs end with the specification's array of their (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Fr.run_spec m ρ, ?_⟩
  refine (θ_run (Cert.ReferenceIdeal.defs (F := Ideal)) _ _).mono (fun _ h c => ⟨(h c).1.trans ?_, (h c).2⟩) (Cert.RefValue.run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, Cert.RefValue.frame, trivial, algebraic⟩

end Cert.Proof

end
